-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S5000x128 : Shape := ⟨2, ![5000, 128]⟩
abbrev S5000x1 : Shape := ⟨2, ![5000, 1]⟩
abbrev S850000x128 : Shape := ⟨2, ![850000, 128]⟩
abbrev S1x128 : Shape := ⟨2, ![1, 128]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩

abbrev nBuf : Space → Nat
  | .hbm => 62
  | .vmem => 15
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S50000x128, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000x128, .f32⟩
  | .hbm, ⟨38, _⟩ => ⟨S_, .f32⟩
  | .hbm, ⟨39, _⟩ => ⟨S50000x128, .f32⟩
  | .hbm, ⟨40, _⟩ => ⟨S850000x1, .i32⟩
  | .hbm, ⟨41, _⟩ => ⟨S50000x128, .f32⟩
  | .hbm, ⟨42, _⟩ => ⟨S1x128, .f32⟩
  | .hbm, ⟨43, _⟩ => ⟨S50000x64, .f32⟩
  | .hbm, ⟨44, _⟩ => ⟨S_, .i32⟩
  | .hbm, ⟨45, _⟩ => ⟨S850000, .i32⟩
  | .hbm, ⟨46, _⟩ => ⟨S850000, .i1⟩
  | .hbm, ⟨47, _⟩ => ⟨S_, .i32⟩
  | .hbm, ⟨48, _⟩ => ⟨S850000, .i32⟩
  | .hbm, ⟨49, _⟩ => ⟨S850000, .i32⟩
  | .hbm, ⟨50, _⟩ => ⟨S850000, .i32⟩
  | .hbm, ⟨51, _⟩ => ⟨S850000x1, .i32⟩
  | .hbm, ⟨52, _⟩ => ⟨S850000x64, .f32⟩
  | .hbm, ⟨53, _⟩ => ⟨S_, .f32⟩
  | .hbm, ⟨54, _⟩ => ⟨S50000x64, .f32⟩
  | .hbm, ⟨55, _⟩ => ⟨S850000x1, .i32⟩
  | .hbm, ⟨56, _⟩ => ⟨S50000x64, .f32⟩
  | .hbm, ⟨57, _⟩ => ⟨S50000x64, .f32⟩
  | .hbm, ⟨58, _⟩ => ⟨S50000x64, .f32⟩
  | .hbm, ⟨59, _⟩ => ⟨S1x64, .f32⟩
  | .hbm, ⟨60, _⟩ => ⟨S50000x64, .f32⟩
  | .hbm, ⟨61, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 89
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S850000x1, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x128, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x64, .f32⟩
  | .hbm, ⟨70, _⟩ => ⟨S850000x1, .f32⟩
  | .hbm, ⟨71, _⟩ => ⟨S_, .i32⟩
  | .hbm, ⟨72, _⟩ => ⟨S850000, .i32⟩
  | .hbm, ⟨73, _⟩ => ⟨S850000, .i1⟩
  | .hbm, ⟨74, _⟩ => ⟨S_, .i32⟩
  | .hbm, ⟨75, _⟩ => ⟨S850000, .i32⟩
  | .hbm, ⟨76, _⟩ => ⟨S850000, .i32⟩
  | .hbm, ⟨77, _⟩ => ⟨S850000, .i32⟩
  | .hbm, ⟨78, _⟩ => ⟨S850000x1, .i32⟩
  | .hbm, ⟨79, _⟩ => ⟨S850000x64, .f32⟩
  | .hbm, ⟨80, _⟩ => ⟨S850000x64, .f32⟩
  | .hbm, ⟨81, _⟩ => ⟨S850000x64, .f32⟩
  | .hbm, ⟨82, _⟩ => ⟨S_, .f32⟩
  | .hbm, ⟨83, _⟩ => ⟨S50000x64, .f32⟩
  | .hbm, ⟨84, _⟩ => ⟨S850000x1, .i32⟩
  | .hbm, ⟨85, _⟩ => ⟨S50000x64, .f32⟩
  | .hbm, ⟨86, _⟩ => ⟨S1x64, .f32⟩
  | .hbm, ⟨87, _⟩ => ⟨S50000x64, .f32⟩
  | .hbm, ⟨88, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KernelRun.lean ====
/-
  The idealized kernel program, run and read at its result.

  The program is three stretches of array operations, the first dense stage as a grid of ten row blocks, a stretch
  (gather the scaled rows along the edge list, sum them at their landing rows), the second dense stage as a grid of ten
  row blocks, and a last stretch (gather, sum, scale by the node factor, add the bias). `run_result` says that every
  execution ends with the result array at the composition of those seven steps applied to the launch memory.
-/
import proofs.«102051_j22308060135605_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run of the whole program, read at its result: every weakly fair execution terminates without a fault, the result
    array ends at the last boundary's contents `Gen.W7` (the fold of the host stretches and the two regions' write-backs
    from the launch memory), and the argument arrays end as launched. The launch over the generated segments, the last
    thread state read at the result buffer too. -/
theorem run_result : θ_run defs (onTc (τ := τ) (main (F := F))) ⟨m, fun _ => 0, ρ⟩ (fun r => ∀ c : Dev nD,
      r.2.mem ((c.tc : Thread nD τ).loc main_v43) = W7 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v43 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.RunValue

end
-- ==== Proof.Spec.lean ====
/-
  A two-layer graph convolution with symmetric normalisation, as mathematics over the extended reals.

  Nodes are the rows of a 50000 × F array; an edge list of 850000 entries names, for each entry e, a source row and a
  landing row. One layer maps a node array h to  out[c] = Σ_{e lands on c} d[src e] · d[c] · (h W)[src e]  (+ bias),
  d ≥ 0 the inverse square root of the landing counts. Because d[c] does not depend on e it can be taken out of the
  sum, provided it is a nonnegative real: the dense half of a layer is then "(h W) scaled row-wise by d", the sparse half
  a plain gather of rows followed by a plain sum over the landing entries, and the outer factor d[c] is applied by the next
  dense stage. This file states the two dense stages (`hidden1`, `hidden2`) as functions of whole arrays, index by
  index, and the law that takes a nonnegative real factor out of a finite sum of extended reals.
-/
import Idealize.ShloMosaic.PureOps.Ideal
import Idealize.ShloMosaic.Lib.ValueIdx

noncomputable section

namespace Cert.Gcn

open Idealize.ShloMosaic Idealize.ShloMosaic.ValueIdx
open scoped BigOperators

/-- The first dense stage: the product of the node features with the first weight matrix, each row `r` scaled by the
    node's normalisation factor `s r`:  (r, j) ↦ (Σ_k x[r,k] · w[k,j]) · s[r]. -/
def hidden1 (x : (⟨2, ![50000, 128]⟩ : Shape).Idx → EReal) (w : (⟨2, ![128, 128]⟩ : Shape).Idx → EReal)
    (s : (⟨2, ![50000, 1]⟩ : Shape).Idx → EReal) : (⟨2, ![50000, 128]⟩ : Shape).Idx → EReal :=
  fun i => (∑ k : Fin 128, x (ix2 ⟨(i 0).val, idx2_lt0 i⟩ k) * w (ix2 k ⟨(i 1).val, idx2_lt1 i⟩))
    * s (ix2 ⟨(i 0).val, idx2_lt0 i⟩ 0)

/-- The second dense stage: the aggregated first layer `a` is scaled row-wise by `s`, the bias row `b` added and the
    negative part cut off; that array times the second weight matrix, each row scaled by `s` again:
    (r, j) ↦ (Σ_k max (a[r,k] · s[r] + b[k]) 0 · w[k,j]) · s[r]. -/
def hidden2 (a : (⟨2, ![50000, 128]⟩ : Shape).Idx → EReal) (s : (⟨2, ![50000, 1]⟩ : Shape).Idx → EReal)
    (b : (⟨2, ![1, 128]⟩ : Shape).Idx → EReal) (w : (⟨2, ![128, 64]⟩ : Shape).Idx → EReal) :
    (⟨2, ![50000, 64]⟩ : Shape).Idx → EReal :=
  fun i => (∑ k : Fin 128, max (a (ix2 ⟨(i 0).val, idx2_lt0 i⟩ k) * s (ix2 ⟨(i 0).val, idx2_lt0 i⟩ 0) + b (ix2 0 k)) 0
      * w (ix2 k ⟨(i 1).val, idx2_lt1 i⟩))
    * s (ix2 ⟨(i 0).val, idx2_lt0 i⟩ 0)

end Cert.Gcn

end
-- ==== Proof.LibPlainMatmul.lean ====
/-
  A plain matrix product read at one entry.

  The matrix unit's contraction with dimension numbers "rows × contraction times contraction × columns"
  (left contracting axis 1, right contracting axis 0, no batch axis), accumulated into the zero splat, is at the
  ideal values the textbook product: entry (i, j) is the sum over the contraction coordinate k of
  l (i, k) · r (k, j).  The statement is over any dimension record whose six lists are those of the plain
  product, so it applies to a printed record whatever name it carries.
-/
import Idealize.ShloMosaic.Lib.ValueIdx
import Idealize.ShloMosaic.PureOps.Ideal.Laws

noncomputable section

open scoped BigOperators

namespace Idealize.ShloMosaic.PlainMatmul

open Idealize.ShloMosaic Idealize.ShloMosaic.ValueIdx

/-- Entry (i, j) of an M×K by K×N `tpu.matmul` into the zero accumulator, at the ideal values: the sum over the
    K contraction coordinates of the left operand's row entry times the right operand's column entry. -/
theorem matmul_zero_apply {M K N : Nat} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (i : Fin M) (j : Fin N) :
    matmul D prec l r (constant ⟨2, ![M, N]⟩ .f32 0x00000000#32) (ix2 i j)
      = ∑ k : Fin K, l (ix2 i k) * r (ix2 k j) := by
  obtain ⟨lc, rc, ln, rn, lb, rb, wf⟩ := D
  dsimp only at hlc hrc hln hrn hlb hrb
  subst hlc hrc hln hrn hlb hrb
  refine (Ideal.matmul_constant_zero_apply _ prec l r (ix2 i j)).trans ?_
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 i k :=
    funext fun a => Fin.ext (by
      match a with
      | ⟨0, _⟩ =>
        unfold DotDims.lhsIdx
        rw [dif_neg (by exact List.not_mem_nil), dif_pos (by exact List.mem_singleton.mpr rfl)]
        rfl
      | ⟨1, _⟩ => exact (DotDims.lhsIdx_val_of_single _ rfl _ _).trans hk)
  have er : DotDims.rhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 k j :=
    funext fun a => Fin.ext (by
      match a with
      | ⟨0, _⟩ => exact (DotDims.rhsIdx_val_of_single _ rfl _ _).trans hk
      | ⟨1, _⟩ =>
        unfold DotDims.rhsIdx
        rw [dif_neg (by exact List.not_mem_nil), dif_pos (by exact List.mem_singleton.mpr rfl)]
        rfl)
  rw [el, er]

end Idealize.ShloMosaic.PlainMatmul

end
-- ==== Proof.LibKeptColumn.lean ====
/-
  Two layout facts about a column kept after a row reduction (a sum with the reduced axis kept as a unit axis):
  a vector of length a cast to an [a, 1] column, and an [a, 1] column spread along the rows of an [a, b] array, each read
  at an index.
-/
import Idealize.ShloMosaic.Lib.Pipeline.Value
import Idealize.ShloMosaic.Lib.ValueIdx

noncomputable section

namespace Idealize.ShloMosaic.KeptColumn

open Idealize.ShloMosaic Idealize.ShloMosaic.ValueIdx

variable {α : Type}

/-- An `[a]` array cast to an `[a, 1]` column reads, at `(i, u)`, the operand at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`: the unit axis is read at 0,
    the row axis at `p` (when `a = 1` the only row is row 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.KeptColumn

end
-- ==== Proof.Region0.lean ====
/-
  The first dense stage of the two-layer graph convolution, read off the first pipelined region.

  The region runs over ten grid points; point t holds rows 5000·t … 5000·t+4999 of the node features, of the per-node
  factor and of the output, and the whole 128 × 128 weight matrix. At each point the body stores, for a row p of the
  block and a column q,  (Σ_k x[p,k] · w[k,q]) · s[p]  (the products accumulate into a zero matrix, and at the ideal
  values the narrowing of the operands to a shorter format is the identity). The ten row blocks tile the 50000 rows, so
  after the run the output array is the whole-array function `Cert.Gcn.hidden1` of the three arrays found at entry.

  The file has two parts: the body's stored value at a row and a column of a block, and the passage from the ten blocks
  to the whole array.
-/
import proofs.«102051_j22308060135605_2_alg».proof.Proof.Gen.KernelIdeal.Frame
import proofs.«102051_j22308060135605_2_alg».proof.Proof.Spec
import proofs.«102051_j22308060135605_2_alg».proof.Proof.LibPlainMatmul
import proofs.«102051_j22308060135605_2_alg».proof.Proof.LibKeptColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Blocks

open Cert.KernelIdeal Idealize.ShloMosaic Idealize.ShloMosaic.TcCoe Idealize.SL.Sem
open Idealize.ShloMosaic.ValueIdx
open Idealize.ShloMosaic.Pipeline (Dat)
open scoped BigOperators

/-! ## The body's stored value at a row and a column of a block -/

/-- The value the body stores at row `p` and column `q` of its block: the row of the feature block times the column of
    the weights, scaled by the row's factor. -/
theorem stored0_apply (x0 : Vec Ideal S5000x128 .f32) (x1 : Vec Ideal S128x128 .f32) (x2 : Vec Ideal S5000x1 .f32)
    (p : Fin 5000) (q : Fin 128) :
    Gen.k0_pay1 x0 x1 x2 (ix2 p q) = (∑ k : Fin 128, x0 (ix2 p k) * x1 (ix2 k q)) * x2 (ix2 p 0) := by
  unfold Gen.k0_pay1
  rw [mulf_apply]
  refine congrArg₂ (· * ·) ?_ ?_
  · refine (PlainMatmul.matmul_zero_apply dot_S5000x128_S128x128_S5000x128_1_0_0_1_n_n rfl rfl rfl rfl rfl rfl none _ _ p q).trans ?_
    refine Finset.sum_congr rfl fun k _ => ?_
    rw [truncf_apply, truncf_apply]
  · rw [shapeCast_self]
    exact KeptColumn.broadcastTo_a1_ab_apply x2 _ p q

/-! ## From the ten blocks to the whole array -/

variable (V : (c : Dev nD) → (b : Ref sig .tc) → Buf (Elt Ideal) ((c : Thread nD τ).loc b))

/-- The zero offsets of a whole-buffer access, as the constant function. -/
theorem zero_offsets : (![0, 0] : Fin 2 → Nat) = fun _ => 0 := funext fun a => by fin_cases a <;> rfl

/-- The printed index maps, decided over the ten grid points: the features, the factor and the output move together,
    point `t` at row block `t` and column block 0; the weights stay at block (0, 0). -/
theorem row_blocks0 : ∀ t : Fin cfg0.N, t.val < 10
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Every row block is some point's. -/
theorem row_blocks0_onto : ∀ b : Fin 10, ∃ t : Fin cfg0.N, win0_3.index t = ![b.val, 0] :=
  (by decide +kernel : ∀ b : Fin 10, ∃ t : Fin grid0.N, win0_3.index t = ![b.val, 0])

/-- Row `p`, column `k` of the feature block at point `t` is row 5000·t + p of the feature array. -/
theorem features_block0 (c : Dev nD) (t : Fin cfg0.N) (p : Fin 5000) (k : Fin 128) (r : Fin 50000)
    (hr : r.val = 5000 * t.val + p.val) : Gen.iblk0 V c 0 t (ix2 p k) = V c main_arg0 (ix2 r k) := by
  obtain ⟨ht, e00, e01, e10, e11, e20, e21, e30, e31⟩ := row_blocks0 t
  show V c main_arg0 (((cfg0.win 0).blk t).view.emb (ix2 p k)) = V c main_arg0 (ix2 r k)
  refine congrArg _ (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- The weight block at every point is the whole weight matrix. -/
theorem weights_block0 (c : Dev nD) (t : Fin cfg0.N) (k : Fin 128) (q : Fin 128) :
    Gen.iblk0 V c 1 t (ix2 k q) = V c main_arg2 (ix2 k q) := by
  obtain ⟨ht, e00, e01, e10, e11, e20, e21, e30, e31⟩ := row_blocks0 t
  show V c main_arg2 (((cfg0.win 1).blk t).view.emb (ix2 k q)) = V c main_arg2 (ix2 k q)
  refine congrArg _ (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- Row `p` of the factor block at point `t` is row 5000·t + p of the factor array. -/
theorem factor_block0 (c : Dev nD) (t : Fin cfg0.N) (p : Fin 5000) (r : Fin 50000)
    (hr : r.val = 5000 * t.val + p.val) : Gen.iblk0 V c 2 t (ix2 p (0 : Fin 1)) = V c main_v15 (ix2 r (0 : Fin 1)) := by
  obtain ⟨ht, e00, e01, e10, e11, e20, e21, e30, e31⟩ := row_blocks0 t
  show V c main_v15 (((cfg0.win 2).blk t).view.emb (ix2 p (0 : Fin 1))) = V c main_v15 (ix2 r (0 : Fin 1))
  refine congrArg _ (funext fun a => Fin.ext ?_)
  match a with
  | ⟨0, _⟩ => show win0_2.index t (0 : Fin 2) * 5000 + 1 * p.val = r.val; omega
  | ⟨1, _⟩ => show win0_2.index t (1 : Fin 2) * 1 + 1 * (0 : Fin 1).val = (0 : Fin 1).val; omega

/-- Row `p`, column `q` of the output block at point `t` sits at row 5000·t + p … -/
theorem out_row0 (t : Fin cfg0.N) (p : Fin 5000) (q : Fin 128) :
    ((((cfg0.win 3).blk t).view.emb (ix2 p q) : S50000x128.Idx) 0).val = 5000 * t.val + p.val := by
  obtain ⟨ht, e00, e01, e10, e11, e20, e21, e30, e31⟩ := row_blocks0 t
  show win0_3.index t (0 : Fin 2) * 5000 + 1 * p.val = 5000 * t.val + p.val
  omega

/-- … and column `q` of the output array. -/
theorem out_col0 (t : Fin cfg0.N) (p : Fin 5000) (q : Fin 128) :
    ((((cfg0.win 3).blk t).view.emb (ix2 p q) : S50000x128.Idx) 1).val = q.val := by
  obtain ⟨ht, e00, e01, e10, e11, e20, e21, e30, e31⟩ := row_blocks0 t
  show win0_3.index t (1 : Fin 2) * 128 + 1 * q.val = q.val
  omega

/-- What point `t` writes back is block `t` of the first dense stage of the arrays found at entry. -/
theorem flushed0_eq (c : Dev nD) (t : Fin cfg0.N) :
    (Gen.dat0 (F := Ideal) V c).flushed 3 t
      = ((cfg0.win 3).blk t).view.read (Elt Ideal) (Cert.Gcn.hidden1 (V c main_arg0) (V c main_arg2) (V c main_v15)) := by
  show (cfg0.win 3).cut (grid0.coords t) ((Gen.dat0 (F := Ideal) V c).after 3 t) = _
  rw [Gen.after0_3]
  unfold Gen.out0_3
  rw [View.canon_unit_zero zero_offsets]
  simp only [View.ld_unit_zero (S := S5000x128) zero_offsets, View.ld_unit_zero (S := S128x128) zero_offsets,
    View.ld_unit_zero (S := S5000x1) zero_offsets]
  refine funext fun (j : S5000x128.Idx) => ?_
  obtain ⟨p, q, rfl⟩ : ∃ (p : Fin 5000) (q : Fin 128), j = ix2 p q := ⟨j 0, j 1, eq_ix2 j⟩
  show Gen.k0_pay1 (Gen.iblk0 V c 0 t) (Gen.iblk0 V c 1 t) (Gen.iblk0 V c 2 t) (ix2 p q)
    = Cert.Gcn.hidden1 (V c main_arg0) (V c main_arg2) (V c main_v15) (((cfg0.win 3).blk t).view.emb (ix2 p q))
  refine (stored0_apply _ _ _ p q).trans ?_
  have hrow := out_row0 t p q
  have hcol := out_col0 t p q
  unfold Cert.Gcn.hidden1
  refine congrArg₂ (· * ·) (Finset.sum_congr rfl fun k _ => congrArg₂ (· * ·) ?_ ?_) ?_
  · exact features_block0 V c t p k _ hrow
  · refine (weights_block0 V c t k q).trans (congrArg _ ?_)
    refine funext fun a => Fin.ext ?_
    match a with
    | ⟨0, _⟩ => rfl
    | ⟨1, _⟩ => exact hcol.symm
  · exact factor_block0 V c t p _ hrow

/-- An index of the output array is in point `t`'s block iff each coordinate is in the block's range on its axis. -/
theorem mem_block0 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v16).slice (win0_3.rect t)).set ↔ _
  rw [View.set_slice_whole, Rect.mem_set_unit]
  exact Iff.rfl

/-- The ten row blocks cover the output array: row `r` is in the block of point `r / 5000`. -/
theorem covered0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := row_blocks0_onto ⟨(i 0).val / 5000, by omega⟩
  have q0 : win0_3.index t (0 : Fin 2) = (i 0).val / 5000 := congrFun ht 0
  have q1 : win0_3.index t (1 : Fin 2) = 0 := congrFun ht 1
  refine ⟨t, Gen.flush0_3 t, ?_⟩
  rw [mem_block0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- THE OUTPUT ARRAY after the run is the first dense stage of the arrays the region finds at entry. -/
theorem final0 (c : Dev nD) :
    (Gen.dat0 (F := Ideal) V c).arrAt 3 cfg0.N = Cert.Gcn.hidden1 (V c main_arg0) (V c main_arg2) (V c main_v15) :=
  (Gen.dat0 (F := Ideal) V c).arrAt_eq_of_cover 3 (Cert.Gcn.hidden1 (V c main_arg0) (V c main_arg2) (V c main_v15))
    (fun t _ => flushed0_eq V c t) covered0

end Cert.KernelIdeal.Blocks

end
-- ==== Proof.Region1.lean ====
/-
  The second dense stage of the two-layer graph convolution, read off the second pipelined region.

  The region runs over ten grid points; point t holds rows 5000·t … 5000·t+4999 of the aggregated first layer, of the
  per-node factor and of the output, and the whole bias row and the whole 128 × 64 weight matrix. At each point the body
  scales each row of the aggregated block by the row's factor, adds the bias row and cuts off the negative part; it
  stores, for a row p of the block and a column q,  (Σ_k max (a[p,k] · s[p] + b[k]) 0 · w[k,q]) · s[p]  (the products
  accumulate into a zero matrix, and at the ideal values the narrowing of the operands to a shorter format is the
  identity; the body reads the factor block twice, both times the same block). The ten row blocks tile the 50000 rows, so
  after the run the output array is the whole-array function `Cert.Gcn.hidden2` of the four arrays found at entry.

  The file has two parts: the body's stored value at a row and a column of a block, and the passage from the ten blocks
  to the whole array.
-/
import proofs.«102051_j22308060135605_2_alg».proof.Proof.Gen.KernelIdeal.Frame
import proofs.«102051_j22308060135605_2_alg».proof.Proof.Spec
import proofs.«102051_j22308060135605_2_alg».proof.Proof.LibPlainMatmul
import proofs.«102051_j22308060135605_2_alg».proof.Proof.LibKeptColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Blocks

open Cert.KernelIdeal Idealize.ShloMosaic Idealize.ShloMosaic.TcCoe Idealize.SL.Sem
open Idealize.ShloMosaic.ValueIdx
open Idealize.ShloMosaic.Pipeline (Dat)
open scoped BigOperators

/-! ## The body's stored value at a row and a column of a block -/

/-- The value the body stores at row `p` and column `q` of its block: the row of the aggregated block, scaled by the row's
    factor, shifted by the bias row and cut off below at zero, times the column of the weights, scaled by the row's
    factor (`x2` and `x16` are the body's two reads of the factor block). -/
theorem stored1_apply (x0 : Vec Ideal S5000x128 .f32) (x2 : Vec Ideal S5000x1 .f32) (x6 : Vec Ideal S1x128 .f32)
    (x13 : Vec Ideal S128x64 .f32) (x16 : Vec Ideal S5000x1 .f32) (p : Fin 5000) (q : Fin 64) :
    Gen.k1_pay1 x0 x2 x6 x13 x16 (ix2 p q)
      = (∑ k : Fin 128, max (x0 (ix2 p k) * x2 (ix2 p 0) + x6 (ix2 0 k)) 0 * x13 (ix2 k q)) * x16 (ix2 p 0) := by
  unfold Gen.k1_pay1
  rw [mulf_apply]
  refine congrArg₂ (· * ·) ?_ ?_
  · refine (PlainMatmul.matmul_zero_apply dot_S5000x128_S128x64_S5000x64_1_0_0_1_n_n rfl rfl rfl rfl rfl rfl none _ _ p q).trans ?_
    refine Finset.sum_congr rfl fun k _ => ?_
    rw [truncf_apply, truncf_apply, maximumf_apply, addf_apply, mulf_apply, broadcast_apply,
      shapeCast_self, shapeCast_self, shapeCast_self, KeptColumn.broadcastTo_a1_ab_apply, broadcastTo_1b_ab_apply]
    show max _ (Ideal.ofBits .f32 0x00000000#32) * _ = _
    rw [Ideal.ofBits_zero_f32]
  · rw [shapeCast_self]
    exact KeptColumn.broadcastTo_a1_ab_apply x16 _ p q

/-! ## From the ten blocks to the whole array -/

variable (V : (c : Dev nD) → (b : Ref sig .tc) → Buf (Elt Ideal) ((c : Thread nD τ).loc b))

/-- The zero offsets of a whole-buffer access, as the constant function. -/
theorem zero_offsets1 : (![0, 0] : Fin 2 → Nat) = fun _ => 0 := funext fun a => by fin_cases a <;> rfl

/-- The printed index maps, decided over the ten grid points: the aggregated layer, the factor and the output move
    together, point `t` at row block `t` and column block 0; the bias row and the weights stay at block (0, 0). -/
theorem row_blocks1 : ∀ t : Fin cfg1.N, t.val < 10
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Every row block is some point's. -/
theorem row_blocks1_onto : ∀ b : Fin 10, ∃ t : Fin cfg1.N, win1_4.index t = ![b.val, 0] :=
  (by decide +kernel : ∀ b : Fin 10, ∃ t : Fin grid1.N, win1_4.index t = ![b.val, 0])

/-- Row `p`, column `k` of the aggregated block at point `t` is row 5000·t + p of the aggregated array. -/
theorem layer_block1 (c : Dev nD) (t : Fin cfg1.N) (p : Fin 5000) (k : Fin 128) (r : Fin 50000)
    (hr : r.val = 5000 * t.val + p.val) : Gen.iblk1 V c 0 t (ix2 p k) = V c main_v26 (ix2 r k) := by
  obtain ⟨ht, e00, e01, e10, e11, e20, e21, e30, e31, e40, e41⟩ := row_blocks1 t
  show V c main_v26 (((cfg1.win 0).blk t).view.emb (ix2 p k)) = V c main_v26 (ix2 r k)
  refine congrArg _ (funext fun a => Fin.ext ?_)
  match a with
  | ⟨0, _⟩ => show win1_0.index t (0 : Fin 2) * 5000 + 1 * p.val = r.val; omega
  | ⟨1, _⟩ => show win1_0.index t (1 : Fin 2) * 128 + 1 * k.val = k.val; omega

/-- Row `p` of the factor block at point `t` is row 5000·t + p of the factor array. -/
theorem factor_block1 (c : Dev nD) (t : Fin cfg1.N) (p : Fin 5000) (r : Fin 50000)
    (hr : r.val = 5000 * t.val + p.val) : Gen.iblk1 V c 1 t (ix2 p (0 : Fin 1)) = V c main_v15 (ix2 r (0 : Fin 1)) := by
  obtain ⟨ht, e00, e01, e10, e11, e20, e21, e30, e31, e40, e41⟩ := row_blocks1 t
  show V c main_v15 (((cfg1.win 1).blk t).view.emb (ix2 p (0 : Fin 1))) = V c main_v15 (ix2 r (0 : Fin 1))
  refine congrArg _ (funext fun a => Fin.ext ?_)
  match a with
  | ⟨0, _⟩ => show win1_1.index t (0 : Fin 2) * 5000 + 1 * p.val = r.val; omega
  | ⟨1, _⟩ => show win1_1.index t (1 : Fin 2) * 1 + 1 * (0 : Fin 1).val = (0 : Fin 1).val; omega

/-- The bias block at every point is the whole bias row. -/
theorem bias_block1 (c : Dev nD) (t : Fin cfg1.N) (k : Fin 128) :
    Gen.iblk1 V c 2 t (ix2 (0 : Fin 1) k) = V c main_v27 (ix2 (0 : Fin 1) k) := by
  obtain ⟨ht, e00, e01, e10, e11, e20, e21, e30, e31, e40, e41⟩ := row_blocks1 t
  show V c main_v27 (((cfg1.win 2).blk t).view.emb (ix2 (0 : Fin 1) k)) = V c main_v27 (ix2 (0 : Fin 1) k)
  refine congrArg _ (funext fun a => Fin.ext ?_)
  match a with
  | ⟨0, _⟩ => show win1_2.index t (0 : Fin 2) * 1 + 1 * (0 : Fin 1).val = (0 : Fin 1).val; omega
  | ⟨1, _⟩ => show win1_2.index t (1 : Fin 2) * 128 + 1 * k.val = k.val; omega

/-- The weight block at every point is the whole weight matrix. -/
theorem weights_block1 (c : Dev nD) (t : Fin cfg1.N) (k : Fin 128) (q : Fin 64) :
    Gen.iblk1 V c 3 t (ix2 k q) = V c main_arg4 (ix2 k q) := by
  obtain ⟨ht, e00, e01, e10, e11, e20, e21, e30, e31, e40, e41⟩ := row_blocks1 t
  show V c main_arg4 (((cfg1.win 3).blk t).view.emb (ix2 k q)) = V c main_arg4 (ix2 k q)
  refine congrArg _ (funext fun a => Fin.ext ?_)
  match a with
  | ⟨0, _⟩ => show win1_3.index t (0 : Fin 2) * 128 + 1 * k.val = k.val; omega
  | ⟨1, _⟩ => show win1_3.index t (1 : Fin 2) * 64 + 1 * q.val = q.val; omega

/-- Row `p`, column `q` of the output block at point `t` sits at row 5000·t + p … -/
theorem out_row1 (t : Fin cfg1.N) (p : Fin 5000) (q : Fin 64) :
    ((((cfg1.win 4).blk t).view.emb (ix2 p q) : S50000x64.Idx) 0).val = 5000 * t.val + p.val := by
  obtain ⟨ht, e00, e01, e10, e11, e20, e21, e30, e31, e40, e41⟩ := row_blocks1 t
  show win1_4.index t (0 : Fin 2) * 5000 + 1 * p.val = 5000 * t.val + p.val
  omega

/-- … and column `q` of the output array. -/
theorem out_col1 (t : Fin cfg1.N) (p : Fin 5000) (q : Fin 64) :
    ((((cfg1.win 4).blk t).view.emb (ix2 p q) : S50000x64.Idx) 1).val = q.val := by
  obtain ⟨ht, e00, e01, e10, e11, e20, e21, e30, e31, e40, e41⟩ := row_blocks1 t
  show win1_4.index t (1 : Fin 2) * 64 + 1 * q.val = q.val
  omega

/-- What point `t` writes back is block `t` of the second dense stage of the arrays found at entry. -/
theorem flushed1_eq (c : Dev nD) (t : Fin cfg1.N) :
    (Gen.dat1 (F := Ideal) V c).flushed 4 t
      = ((cfg1.win 4).blk t).view.read (Elt Ideal)
          (Cert.Gcn.hidden2 (V c main_v26) (V c main_v15) (V c main_v27) (V c main_arg4)) := by
  show (cfg1.win 4).cut (grid1.coords t) ((Gen.dat1 (F := Ideal) V c).after 4 t) = _
  rw [Gen.after1_4]
  unfold Gen.out1_4
  rw [View.canon_unit_zero zero_offsets1]
  simp only [View.ld_unit_zero (S := S5000x128) zero_offsets1, View.ld_unit_zero (S := S5000x1) zero_offsets1,
    View.ld_unit_zero (S := S1x128) zero_offsets1, View.ld_unit_zero (S := S128x64) zero_offsets1]
  refine funext fun (j : S5000x64.Idx) => ?_
  obtain ⟨p, q, rfl⟩ : ∃ (p : Fin 5000) (q : Fin 64), j = ix2 p q := ⟨j 0, j 1, eq_ix2 j⟩
  show Gen.k1_pay1 (Gen.iblk1 V c 0 t) (Gen.iblk1 V c 1 t) (Gen.iblk1 V c 2 t) (Gen.iblk1 V c 3 t) (Gen.iblk1 V c 1 t) (ix2 p q)
    = Cert.Gcn.hidden2 (V c main_v26) (V c main_v15) (V c main_v27) (V c main_arg4) (((cfg1.win 4).blk t).view.emb (ix2 p q))
  refine (stored1_apply _ _ _ _ _ p q).trans ?_
  have hrow := out_row1 t p q
  have hcol := out_col1 t p q
  unfold Cert.Gcn.hidden2
  refine congrArg₂ (· * ·) (Finset.sum_congr rfl fun k _ => congrArg₂ (· * ·)
    (congrArg (fun z => max z 0) (congrArg₂ (· + ·) (congrArg₂ (· * ·) ?_ ?_) ?_)) ?_) ?_
  · exact layer_block1 V c t p k _ hrow
  · exact factor_block1 V c t p _ hrow
  · exact bias_block1 V c t k
  · refine (weights_block1 V c t k q).trans (congrArg _ ?_)
    refine funext fun a => Fin.ext ?_
    match a with
    | ⟨0, _⟩ => rfl
    | ⟨1, _⟩ => exact hcol.symm
  · exact factor_block1 V c t p _ hrow

/-- An index of the output array is in point `t`'s block iff each coordinate is in the block's range on its axis. -/
theorem mem_block1 (t : Fin cfg1.N) (i : S50000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v28).slice (win1_4.rect t)).set ↔ _
  rw [View.set_slice_whole, Rect.mem_set_unit]
  exact Iff.rfl

/-- The ten row blocks cover the output array: row `r` is in the block of point `r / 5000`. -/
theorem covered1 (i : S50000x64.Idx) :
    ∃ t : Fin cfg1.N, (cfg1.win 4).flush t = true ∧ i ∈ ((cfg1.win 4).blk t).view.set := by
  have hi0 : (i 0).val < 50000 := (i 0).isLt
  have hi1 : (i 1).val < 64 := (i 1).isLt
  obtain ⟨t, ht⟩ := row_blocks1_onto ⟨(i 0).val / 5000, by omega⟩
  have q0 : win1_4.index t (0 : Fin 2) = (i 0).val / 5000 := congrFun ht 0
  have q1 : win1_4.index t (1 : Fin 2) = 0 := congrFun ht 1
  refine ⟨t, Gen.flush1_4 t, ?_⟩
  rw [mem_block1]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 64 ≤ (i 1).val ∧ (i 1).val < win1_4.index t (1 : Fin 2) * 64 + 64; omega

/-- THE OUTPUT ARRAY after the run is the second dense stage of the arrays the region finds at entry. -/
theorem final1 (c : Dev nD) :
    (Gen.dat1 (F := Ideal) V c).arrAt 4 cfg1.N
      = Cert.Gcn.hidden2 (V c main_v26) (V c main_v15) (V c main_v27) (V c main_arg4) :=
  (Gen.dat1 (F := Ideal) V c).arrAt_eq_of_cover 4
    (Cert.Gcn.hidden2 (V c main_v26) (V c main_v15) (V c main_v27) (V c main_arg4))
    (fun t _ => flushed1_eq V c t) covered1

end Cert.KernelIdeal.Blocks

end
-- ==== Proof.LibRowGatherScatter.lean ====
/-
  ROW GATHER AND ROW SCATTER READ AT AN INDEX. A general lemma file: it names no program.

  What `x[idx]` of the ROWS of a matrix `x : [N, C]` at a column of integer indices `idx : [R, 1]` lowers to is a
  `stablehlo.gather` with offset_dims `[1]`, collapsed_slice_dims `[0]`, start_index_map `[0]`, index_vector_dim 1 and
  slice_sizes `[1, C]`; result element `(e, j)` is `x` at `(r, j)`, where `r` is the start index `idx[e, 0]` read as a
  signed integer and clamped into `[0, N − 1]` (`rowOf`, `rowGather_apply`). The same with a vector `x : [N]` in place
  of the matrix (`vecGather_apply`). The matching row scatter (update_window_dims `[1]`, inserted_window_dims `[0]`,
  scatter_dims_to_operand_dims `[0]`, index_vector_dim 1) sends update element `(e, j)` to `(idx[e, 0], j)`, the index
  read signed and NOT clamped, and drops it when that is outside the operand: so an update that lands at `(r, k)` has
  `idx[e, 0] = r` and `j = k` (`rowScatter_lands`), and, the landing row being inside `[0, N)`, the gather's clamp of
  that same index does nothing: the row the gather reads for entry `e` is the row the scatter writes (`rowOf_of_lands`).
-/
import Idealize.ShloMosaic.PureOps.Ideal
import Idealize.ShloMosaic.Lib.ValueIdx

noncomputable section

namespace Idealize.ShloMosaic.RowOps

open Idealize.ShloMosaic Idealize.ShloMosaic.ValueIdx

/-! ## Gathering rows of a matrix -/

/-- The dimension numbers of a gather of ROWS: operand `[N, C]`, start indices `[R, 1]` (one row number per entry),
    result `[R, C]`; axis 0 of the operand is collapsed and indexed, axis 1 is copied whole. Their conditions `wf` are
    decided on a program's literal shapes. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row an entry of the start indices names: read signed, clamped into `[0, N − 1]`. -/
def rowOf {R w : Nat} (N : Nat) (hN : 0 < N) (idx : IVec ⟨2, ![R, 1]⟩ w) (e : Fin R) : Fin N :=
  ⟨min (idx (ix2 e 0)).toInt.toNat (N - 1), by omega⟩

/-- THE ROW GATHER READ AT `(e, j)`: the operand at row `rowOf idx e`, column `j`. -/
theorem rowGather_apply {α : Type} {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (j : Fin C) :
    Host.gather (rowGatherDims N R C wf) x idx (ix2 e j) = x (ix2 (rowOf N hN idx e) j) := by
  unfold Host.gather
  congr 1
  funext a
  refine Fin.ext ?_
  show (rowGatherDims N R C wf).start (ix2 e j) idx a + (rowGatherDims N R C wf).batchCoord (ix2 e j) a
    + (rowGatherDims N R C wf).offCoord (ix2 e j) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ (rowGatherDims N R C wf).startIndexMap from List.mem_singleton.mpr rfl)]
    have hsi : (rowGatherDims N R C wf).siIdx (ix2 e j)
        ⟨List.idxOf (⟨0, by decide⟩ : Fin 2) (rowGatherDims N R C wf).startIndexMap,
          List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    have h10 : (⟨1, by decide⟩ : Fin 2) ∉ ([0] : List (Fin 2)) := by decide
    have h1 : (⟨1, by decide⟩ : Fin 2) ∉ (rowGatherDims N R C wf).startIndexMap := h10
    have hk : (⟨1, by decide⟩ : Fin 2) ∈ (rowGatherDims N R C wf).sKept :=
      (GatherDims.mem_sKept _ _).mpr ⟨h10, List.not_mem_nil⟩
    unfold GatherDims.start GatherDims.offCoord
    rw [dif_neg h1, dif_pos hk]
    simp only [Nat.zero_add, Nat.add_zero]
    rfl

/-! ## Gathering entries of a vector at the same column of indices -/

/-- The dimension numbers of the same gather over a VECTOR operand `[N]`: start indices `[R, 1]`, result `[R]`; the
    operand's one axis is collapsed and indexed. Their conditions `wf` are decided on a program's literal shapes. -/
abbrev vecGatherDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand at `rowOf idx e`, the same clamped signed reading of `idx[e, 0]`. -/
theorem vecGather_apply {α : Type} {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (vecGatherDims N R wf) x idx (ix1 e) = x (ix1 (rowOf N hN idx e)) := by
  unfold Host.gather
  congr 1
  funext a
  obtain rfl : a = 0 := Subsingleton.elim _ _
  refine Fin.ext ?_
  show (vecGatherDims N R wf).start (ix1 e) idx 0 + (vecGatherDims N R wf).batchCoord (ix1 e) 0
    + (vecGatherDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N R wf).startIndexMap from List.mem_singleton.mpr rfl)]
  have hsi : (vecGatherDims N R wf).siIdx (ix1 e) ⟨List.idxOf (0 : Fin 1) (vecGatherDims N R wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-! ## Scattering rows into a matrix -/

/-- The dimension numbers of the matching scatter of ROWS: operand `[N, C]`, scatter indices `[R, 1]`, updates
    `[R, C]`; update row `e` goes to operand row `idx[e, 0]`, column by column. Their conditions `wf` are decided on
    a program's literal shapes. -/
abbrev rowScatterDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- WHERE A ROW SCATTER LANDS: an update element `(e, j)` that lands at `(r, k)` has its scatter index `idx[e, 0]`, read
    signed, equal to `r`, and `j = k`. -/
theorem rowScatter_lands {N R C w : Nat}
    (wf : ScatterDims.WF ⟨2, ![N, C]⟩ ⟨2, ![R, 1]⟩ ⟨2, ![R, C]⟩ [1] [0] [0] 1)
    (idx : IVec ⟨2, ![R, 1]⟩ w) (u : (⟨2, ![R, C]⟩ : Shape).Idx) (i : (⟨2, ![N, C]⟩ : Shape).Idx)
    (h : (rowScatterDims N R C wf).resultIdx? u idx = some i) :
    (idx (ix2 ⟨(u 0).val, idx2_lt0 u⟩ 0)).toInt = ((i 0).val : Int) ∧ (u 1).val = (i 1).val := by
  have h10 : (1 : Fin 2) ∉ ([0] : List (Fin 2)) := by decide
  have h00 : (0 : Fin 2) ∈ ([0] : List (Fin 2)) := List.mem_singleton.mpr rfl
  -- the scatter-indices entry update element `u` reads: row `u 0`, the one component
  have hsi : (rowScatterDims N R C wf).siIdx u
      ⟨List.idxOf (0 : Fin 2) (rowScatterDims N R C wf).scatterDimsToOperandDims,
        List.idxOf_lt_length_iff.2 h00⟩ = ix2 ⟨(u 0).val, idx2_lt0 u⟩ 0 := by
    funext b; refine Fin.ext ?_
    match b with
    | ⟨0, _⟩ => rfl
    | ⟨1, _⟩ => rfl
  -- axis 0: the start is the index read signed, the window coordinate is 0 (the axis is inserted)
  have hs0 : (rowScatterDims N R C wf).start u idx (0 : Fin 2) = (idx (ix2 ⟨(u 0).val, idx2_lt0 u⟩ 0)).toInt := by
    unfold ScatterDims.start
    rw [dif_pos (show (0 : Fin 2) ∈ (rowScatterDims N R C wf).scatterDimsToOperandDims from h00), hsi]
  have hw0 : (rowScatterDims N R C wf).window u (0 : Fin 2) = 0 := by
    unfold ScatterDims.window
    rw [dif_neg]
    intro hk
    have : (0 : Fin 2) ∉ ([0] : List (Fin 2)) := by
      simpa [ScatterDims.sKept, Shape.kept, List.mem_filter] using hk
    exact this h00
  -- axis 1: the start is 0 (the map does not name it), the window coordinate is the update's column
  have hs1 : (rowScatterDims N R C wf).start u idx (1 : Fin 2) = 0 := by
    unfold ScatterDims.start
    rw [dif_neg (show (1 : Fin 2) ∉ (rowScatterDims N R C wf).scatterDimsToOperandDims from h10)]
  have hw1 : (rowScatterDims N R C wf).window u (1 : Fin 2) = (u 1).val := by
    unfold ScatterDims.window
    rw [dif_pos (show (1 : Fin 2) ∈ (rowScatterDims N R C wf).sKept by
      simp [ScatterDims.sKept, Shape.kept, List.mem_filter])]
    rfl
  unfold ScatterDims.resultIdx? at h
  split at h
  · rename_i hc
    have hi := Option.some.inj h
    subst hi
    have c0 := (hc (0 : Fin 2)).1
    rw [hs0, hw0] at c0
    refine ⟨?_, ?_⟩
    · show _ = (((((rowScatterDims N R C wf).start u idx (0 : Fin 2)
        + ((rowScatterDims N R C wf).window u (0 : Fin 2) : Nat) : Int)).toNat : Nat) : Int)
      rw [hs0, hw0]
      omega
    · show _ = ((rowScatterDims N R C wf).start u idx (1 : Fin 2)
        + ((rowScatterDims N R C wf).window u (1 : Fin 2) : Nat) : Int).toNat
      rw [hs1, hw1]
      omega
  · exact absurd h (by simp)

/-- THE GATHER'S ROW IS THE SCATTER'S ROW: when update element `u` lands at `i` under the scatter indices `idx`, and
    `idx'` agrees with `idx` at `u`'s entry whenever that entry is not negative (as an index array wrapped pointwise for
    negative entries does), the row the gather reads for that entry off `idx'` is the landing row `i 0`: the landing
    row is inside `[0, N)`, so the clamp does nothing. -/
theorem rowOf_of_lands {N R C w : Nat} (hN : 0 < N)
    (wf : ScatterDims.WF ⟨2, ![N, C]⟩ ⟨2, ![R, 1]⟩ ⟨2, ![R, C]⟩ [1] [0] [0] 1)
    (idx idx' : IVec ⟨2, ![R, 1]⟩ w) (u : (⟨2, ![R, C]⟩ : Shape).Idx) (i : (⟨2, ![N, C]⟩ : Shape).Idx)
    (h : (rowScatterDims N R C wf).resultIdx? u idx = some i)
    (hsame : 0 ≤ (idx (ix2 ⟨(u 0).val, idx2_lt0 u⟩ 0)).toInt →
      idx' (ix2 ⟨(u 0).val, idx2_lt0 u⟩ 0) = idx (ix2 ⟨(u 0).val, idx2_lt0 u⟩ 0)) :
    (rowOf N hN idx' ⟨(u 0).val, idx2_lt0 u⟩).val = (i 0).val := by
  obtain ⟨h0, _⟩ := rowScatter_lands wf idx u i h
  have hs := hsame (by rw [h0]; exact Int.natCast_nonneg _)
  have hlt := idx2_lt0 i
  show min (idx' (ix2 ⟨(u 0).val, idx2_lt0 u⟩ 0)).toInt.toNat (N - 1) = (i 0).val
  rw [hs, h0]
  omega

end Idealize.ShloMosaic.RowOps

end
-- ==== Proof.Terms.lean ====
/-
  The two programs as compositions of whole-array operations.

  Both programs read the same edge list: entry e has a source row and a landing row, the node factor d is the inverse
  square root of the landing counts (zero where nothing lands), and a negative row index is counted from the end. The
  kernel program is  out = d ⊙ Σ_lands gather (hidden2 (Σ_lands gather (hidden1 x W₁ d)) d b₁ W₂) + b₂ ; the reference
  scales every gathered row by the per-edge weight  d[src e] · d[dst e]  instead:
  out = Σ_lands (d[src]·d[dst]) ⊙ gather (max (Σ_lands (d[src]·d[dst]) ⊙ gather (x W₁) + b₁) 0 · W₂) + b₂.
  `kernelOut` and `refOut` are those two compositions, over the library's array operations, with the edge list's two
  index arrays and the node factor as parameters; the operations that only re-lay indices are stated once.
-/
import proofs.«102051_j22308060135605_2_alg».proof.Proof.Spec
import proofs.«102051_j22308060135605_2_alg».proof.Proof.LibRowGatherScatter
import Idealize.ShloMosaic.PureOps

noncomputable section

namespace Cert.Gcn

open Idealize.ShloMosaic Idealize.ShloMosaic.ValueIdx Idealize.ShloMosaic.RowOps

/-- Gathering rows of a 50000 × 128 array along the 850000 edge entries, and summing 850000 × 128 rows at their landing rows. -/
abbrev gather128 : GatherDims ⟨2, ![50000, 128]⟩ ⟨2, ![850000, 1]⟩ ⟨2, ![850000, 128]⟩ := rowGatherDims 50000 850000 128 (by decide)
abbrev scatter128 : ScatterDims ⟨2, ![50000, 128]⟩ ⟨2, ![850000, 1]⟩ ⟨2, ![850000, 128]⟩ := rowScatterDims 50000 850000 128 (by decide)
/-- The same for rows of width 64. -/
abbrev gather64 : GatherDims ⟨2, ![50000, 64]⟩ ⟨2, ![850000, 1]⟩ ⟨2, ![850000, 64]⟩ := rowGatherDims 50000 850000 64 (by decide)
abbrev scatter64 : ScatterDims ⟨2, ![50000, 64]⟩ ⟨2, ![850000, 1]⟩ ⟨2, ![850000, 64]⟩ := rowScatterDims 50000 850000 64 (by decide)
/-- Gathering entries of a vector of 50000 node values along the edge entries. -/
abbrev gather1 : GatherDims ⟨1, ![50000]⟩ ⟨2, ![850000, 1]⟩ ⟨1, ![850000]⟩ := vecGatherDims 50000 850000 (by decide)

/-- An index vector as the one-column array of start indices a gather or scatter reads. -/
def asColumn (v : IVec ⟨1, ![850000]⟩ 32) : IVec ⟨2, ![850000, 1]⟩ 32 :=
  broadcastInDim ⟨2, ![850000, 1]⟩ ![0] (by decide) v

/-- A row index counted from the end when negative: `v + 50000` where `v < 0`, else `v`. -/
def wrapped (v : IVec ⟨1, ![850000]⟩ 32) : IVec ⟨1, ![850000]⟩ 32 :=
  select (cmpi .slt v (broadcastInDim ⟨1, ![850000]⟩ ![] (by decide) (constantI ⟨0, ![]⟩ 32 0#32)))
    (addi v (broadcastInDim ⟨1, ![850000]⟩ ![] (by decide) (constantI ⟨0, ![]⟩ 32 50000#32))) v

/-- The all-zero array of a shape. -/
def zeros (s : Shape) (h : (⟨0, ![]⟩ : Shape).BroadcastsInDim s ![]) : s.Idx → EReal :=
  broadcastInDim s ![] h (constant (F := Ideal) ⟨0, ![]⟩ .f32 0x00000000#32)

/-- The kernel program's result: the second aggregate scaled by the node factor, plus the bias. -/
def kernelOut (x : (⟨2, ![50000, 128]⟩ : Shape).Idx → EReal) (w1 : (⟨2, ![128, 128]⟩ : Shape).Idx → EReal)
    (b1 : (⟨1, ![128]⟩ : Shape).Idx → EReal) (w2 : (⟨2, ![128, 64]⟩ : Shape).Idx → EReal) (b2 : (⟨1, ![64]⟩ : Shape).Idx → EReal)
    (d : (⟨1, ![50000]⟩ : Shape).Idx → EReal) (iR iC : IVec ⟨2, ![850000, 1]⟩ 32) : (⟨2, ![50000, 64]⟩ : Shape).Idx → EReal :=
  addf (F := Ideal) (φ := .f32)
    (mulf (F := Ideal) (φ := .f32) (broadcastInDim ⟨2, ![50000, 64]⟩ ![0, 1] (by decide) (shapeCast ⟨2, ![50000, 1]⟩ d (by decide)))
      (Host.scatterAdd (F := Ideal) (φ := .f32) scatter64 (zeros ⟨2, ![50000, 64]⟩ (by decide)) iC
        (Host.gather gather64
          (hidden2
            (Host.scatterAdd (F := Ideal) (φ := .f32) scatter128 (zeros ⟨2, ![50000, 128]⟩ (by decide)) iC
              (Host.gather gather128 (hidden1 x w1 (shapeCast ⟨2, ![50000, 1]⟩ d (by decide))) iR))
            (shapeCast ⟨2, ![50000, 1]⟩ d (by decide)) (shapeCast ⟨2, ![1, 128]⟩ b1 (by decide)) w2)
          iR)))
    (broadcastInDim ⟨2, ![50000, 64]⟩ ![0, 1] (by decide) (broadcastInDim ⟨2, ![1, 64]⟩ ![1] (by decide) b2))

/-- The per-edge weight of the reference: the node factor at the source row times the node factor at the landing row. -/
def edgeWeight (d : (⟨1, ![50000]⟩ : Shape).Idx → EReal) (iR iCW : IVec ⟨2, ![850000, 1]⟩ 32) : (⟨1, ![850000]⟩ : Shape).Idx → EReal :=
  mulf (F := Ideal) (φ := .f32) (Host.gather gather1 d iR) (Host.gather gather1 d iCW)

end Cert.Gcn

end
-- ==== Proof.Shared.lean ====
/-
  What the two programs share before any arithmetic: the edge list's two index vectors, read off the 2 × 800000 argument
  (row 0 the source rows, row 1 the landing rows, each followed by the 50000 self loops 0 … 49999), and the node factor
  d = 1 / sqrt (number of edge entries landing on the node), zero where nothing lands. Also the two plain matrix
  products' dimension records and the reference program's result as one composition of whole-array operations.
-/
import proofs.«102051_j22308060135605_2_alg».proof.Proof.Terms

noncomputable section

namespace Cert.Gcn

open Idealize.ShloMosaic Idealize.ShloMosaic.ValueIdx Idealize.ShloMosaic.RowOps

/-- 800000 entries followed by 50000 make 850000. -/
theorem edgeConcat : Shape.Concatenates [(⟨1, ![800000]⟩ : Shape), ⟨1, ![50000]⟩] ⟨1, ![850000]⟩ 0 := by decide

/-- One row of the edge-list argument followed by the self loops: an index vector of 850000 entries. -/
def edgeRow (x1 : IVec ⟨2, ![2, 800000]⟩ 32) (off : Fin 2 → Nat) (h : (⟨2, ![2, 800000]⟩ : Shape).Slices off ⟨2, ![1, 800000]⟩) :
    IVec ⟨1, ![850000]⟩ 32 :=
  concatenate ⟨1, ![850000]⟩ 0
    [⟨⟨1, ![800000]⟩, shapeCast ⟨1, ![800000]⟩ (extractStridedSlice ⟨2, ![1, 800000]⟩ off x1 h) (by decide)⟩,
     ⟨⟨1, ![50000]⟩, iotaInDim ⟨1, ![50000]⟩ 32 0⟩] edgeConcat

/-- Counting the entries that land on each node: a sum of ones at the landing rows. -/
abbrev countDims : ScatterDims ⟨1, ![50000]⟩ ⟨2, ![850000, 1]⟩ ⟨1, ![850000]⟩ := ⟨[], [0], [0], 1, by decide⟩

/-- The landing count of every node. -/
def landingCount (dst : IVec ⟨1, ![850000]⟩ 32) : (⟨1, ![50000]⟩ : Shape).Idx → EReal :=
  Host.scatterAdd (F := Ideal) (φ := .f32) countDims (zeros ⟨1, ![50000]⟩ (by decide)) (asColumn dst)
    (broadcastInDim ⟨1, ![850000]⟩ ![] (by decide) (constant (F := Ideal) ⟨0, ![]⟩ .f32 0x3F800000#32))

/-- The node factor: the inverse square root of the landing count where it is positive, zero elsewhere. -/
def nodeFactor (dst : IVec ⟨1, ![850000]⟩ 32) : (⟨1, ![50000]⟩ : Shape).Idx → EReal :=
  select (cmpf (F := Ideal) (φ := .f32) .ogt (landingCount dst) (zeros ⟨1, ![50000]⟩ (by decide)))
    (Host.rsqrt (F := Ideal) (φ := .f32) (landingCount dst)) (zeros ⟨1, ![50000]⟩ (by decide))

/-- The plain products: 50000 × 128 by 128 × 128, and 50000 × 128 by 128 × 64. -/
abbrev dot1 : DotDims ⟨2, ![50000, 128]⟩ ⟨2, ![128, 128]⟩ ⟨2, ![50000, 128]⟩ := ⟨[1], [0], [0], [1], [], [], by decide⟩
abbrev dot2 : DotDims ⟨2, ![50000, 128]⟩ ⟨2, ![128, 64]⟩ ⟨2, ![50000, 64]⟩ := ⟨[1], [0], [0], [1], [], [], by decide⟩

/-- The reference's hidden layer: the weighted aggregate of the gathered rows of x W₁, plus the bias, negative part cut off. -/
def refHidden (x : (⟨2, ![50000, 128]⟩ : Shape).Idx → EReal) (w1 : (⟨2, ![128, 128]⟩ : Shape).Idx → EReal)
    (b1 : (⟨1, ![128]⟩ : Shape).Idx → EReal) (d : (⟨1, ![50000]⟩ : Shape).Idx → EReal) (iR iC iCW : IVec ⟨2, ![850000, 1]⟩ 32) :
    (⟨2, ![50000, 128]⟩ : Shape).Idx → EReal :=
  maximumf (F := Ideal) (φ := .f32)
    (addf (F := Ideal) (φ := .f32)
      (Host.scatterAdd (F := Ideal) (φ := .f32) scatter128 (zeros ⟨2, ![50000, 128]⟩ (by decide)) iC
        (mulf (F := Ideal) (φ := .f32)
          (broadcastInDim ⟨2, ![850000, 128]⟩ ![0, 1] (by decide) (broadcastInDim ⟨2, ![850000, 1]⟩ ![0] (by decide) (edgeWeight d iR iCW)))
          (Host.gather gather128 (Host.dotGeneral (F := Ideal) (φ₁ := .f32) (φ₂ := .f32) dot1 none x w1) iR)))
      (broadcastInDim ⟨2, ![50000, 128]⟩ ![0, 1] (by decide) (broadcastInDim ⟨2, ![1, 128]⟩ ![1] (by decide) b1)))
    (zeros ⟨2, ![50000, 128]⟩ (by decide))

/-- The reference program's result. -/
def refOut (x : (⟨2, ![50000, 128]⟩ : Shape).Idx → EReal) (w1 : (⟨2, ![128, 128]⟩ : Shape).Idx → EReal)
    (b1 : (⟨1, ![128]⟩ : Shape).Idx → EReal) (w2 : (⟨2, ![128, 64]⟩ : Shape).Idx → EReal) (b2 : (⟨1, ![64]⟩ : Shape).Idx → EReal)
    (d : (⟨1, ![50000]⟩ : Shape).Idx → EReal) (iR iC iCW : IVec ⟨2, ![850000, 1]⟩ 32) : (⟨2, ![50000, 64]⟩ : Shape).Idx → EReal :=
  addf (F := Ideal) (φ := .f32)
    (Host.scatterAdd (F := Ideal) (φ := .f32) scatter64 (zeros ⟨2, ![50000, 64]⟩ (by decide)) iC
      (mulf (F := Ideal) (φ := .f32)
        (broadcastInDim ⟨2, ![850000, 64]⟩ ![0, 1] (by decide) (broadcastInDim ⟨2, ![850000, 1]⟩ ![0] (by decide) (edgeWeight d iR iCW)))
        (Host.gather gather64 (Host.dotGeneral (F := Ideal) (φ₁ := .f32) (φ₂ := .f32) dot2 none (refHidden x w1 b1 d iR iC iCW) w2) iR)))
    (broadcastInDim ⟨2, ![50000, 64]⟩ ![0, 1] (by decide) (broadcastInDim ⟨2, ![1, 64]⟩ ![1] (by decide) b2))

end Cert.Gcn

end
-- ==== Proof.KernelValue.lean ====
/-
  What the idealized kernel program's result array holds, as one composition of whole-array operations of the arguments.

  The program's buffers are followed boundary by boundary: the three first stretches compute the edge list's index vectors
  and the node factor; the first grid leaves `hidden1` of the features, the weights and the factor; the next stretch
  gathers its rows along the edge list and sums them at the landing rows; the second grid leaves `hidden2` of that
  aggregate; the last stretch gathers and sums again, scales by the factor and adds the bias. Composed: `kernelOut`.
-/
import proofs.«102051_j22308060135605_2_alg».proof.Proof.Gen.KernelIdeal.Frame
import proofs.«102051_j22308060135605_2_alg».proof.Proof.Region0
import proofs.«102051_j22308060135605_2_alg».proof.Proof.Region1
import proofs.«102051_j22308060135605_2_alg».proof.Proof.Shared
import Idealize.ShloMosaic.PureOps.Ideal

set_option maxRecDepth 16384

noncomputable section

namespace Cert.KernelIdeal.ValueChain

open Cert.KernelIdeal Cert.KernelIdeal.Gen
open Idealize.ShloMosaic Idealize.ShloMosaic.TcCoe Idealize.ShloMosaic.Tactic Idealize.ShloMosaic.StableHlo
open Idealize.SL Idealize.SL.Sem
open Cert.Gcn

variable (m : (ℓ : Loc nD τ sig) → Buf (Elt Ideal) ℓ) (ρ : Dev nD → PrngReg) (c : Dev nD)

/-! ## Before the first grid: the index vectors, the node factor, the arguments -/

/-- The edge list's source rows, landing rows, and the node factor as the first grid finds them. -/
def srcRows : IVec ⟨1, ![850000]⟩ 32 := W3 (F := Ideal) m ρ c (Proc.devRef .tc main_v5)
def dstRows : IVec ⟨1, ![850000]⟩ 32 := W3 (F := Ideal) m ρ c (Proc.devRef .tc main_v6)
def factorColumn : (⟨2, ![50000, 1]⟩ : Shape).Idx → EReal := W3 (F := Ideal) m ρ c (Proc.devRef .tc main_v15)

set_option maxHeartbeats 8000000 in
theorem srcRows_eq : srcRows m ρ c = edgeRow (m ((c : Thread nD τ).loc main_arg1)) ![0, 0] slices_S2x800000_S1x800000_0_0 := by
  show StableHlo.after hostOps0_2 (StableHlo.after hostOps0_1 (StableHlo.after hostOps0 (W0 m ρ c))) (Proc.devRef .tc main_v5) = _
  after_results
  all_goals rfl

set_option maxHeartbeats 8000000 in
theorem dstRows_eq : dstRows m ρ c = edgeRow (m ((c : Thread nD τ).loc main_arg1)) ![1, 0] slices_S2x800000_S1x800000_1_0 := by
  show StableHlo.after hostOps0_2 (StableHlo.after hostOps0_1 (StableHlo.after hostOps0 (W0 m ρ c))) (Proc.devRef .tc main_v6) = _
  after_results
  all_goals rfl

/-! ### The three first stretches, each from any contents `V` -/

section Stretches
variable (V : Valuation τ sig (Elt Ideal))

set_option maxHeartbeats 8000000 in
theorem stretch0_v6 : StableHlo.after (hostOps0 (F := Ideal)) V (Proc.devRef .tc main_v6)
    = edgeRow (V (Proc.devRef .tc main_arg1)) ![1, 0] slices_S2x800000_S1x800000_1_0 := by
  after_results
  all_goals rfl

set_option maxHeartbeats 8000000 in
theorem stretch0_v10 : StableHlo.after (hostOps0 (F := Ideal)) V (Proc.devRef .tc main_v10)
    = landingCount (StableHlo.after (hostOps0 (F := Ideal)) V (Proc.devRef .tc main_v6)) := by
  after_results
  all_goals rfl

set_option maxHeartbeats 8000000 in
theorem stretch0_v12 : StableHlo.after (hostOps0 (F := Ideal)) V (Proc.devRef .tc main_v12)
    = cmpf (F := Ideal) (φ := .f32) .ogt (StableHlo.after (hostOps0 (F := Ideal)) V (Proc.devRef .tc main_v10)) (zeros ⟨1, ![50000]⟩ (by decide)) := by
  after_results
  all_goals rfl

set_option maxHeartbeats 8000000 in
theorem stretch0_v13 : StableHlo.after (hostOps0 (F := Ideal)) V (Proc.devRef .tc main_v13)
    = Host.rsqrt (F := Ideal) (φ := .f32) (StableHlo.after (hostOps0 (F := Ideal)) V (Proc.devRef .tc main_v10)) := by
  after_results
  all_goals rfl

set_option maxHeartbeats 8000000 in
theorem stretch0_cst2 : StableHlo.after (hostOps0 (F := Ideal)) V (Proc.devRef .tc main_cst_2)
    = constant (F := Ideal) ⟨0, ![]⟩ .f32 0x00000000#32 := by
  after_results
  all_goals rfl

set_option maxHeartbeats 8000000 in
theorem stretch01_v14 : StableHlo.after (hostOps0_1 (F := Ideal)) V (Proc.devRef .tc main_v14)
    = select (V (Proc.devRef .tc main_v12)) (V (Proc.devRef .tc main_v13))
        (broadcastInDim ⟨1, ![50000]⟩ ![] (by decide) (V (Proc.devRef .tc main_cst_2))) := by
  after_results
  all_goals rfl

set_option maxHeartbeats 8000000 in
theorem stretch02_v15 : StableHlo.after (hostOps0_2 (F := Ideal)) V (Proc.devRef .tc main_v15)
    = shapeCast ⟨2, ![50000, 1]⟩ (V (Proc.devRef .tc main_v14)) shapeCasts_S50000_S50000x1 := by
  after_results
  all_goals rfl

end Stretches

theorem factorColumn_eq : factorColumn m ρ c
    = shapeCast ⟨2, ![50000, 1]⟩ (nodeFactor (edgeRow (m ((c : Thread nD τ).loc main_arg1)) ![1, 0] slices_S2x800000_S1x800000_1_0)) shapeCasts_S50000_S50000x1 := by
  refine (stretch02_v15 (W2 m ρ c)).trans ?_
  refine congrArg (fun v => shapeCast ⟨2, ![50000, 1]⟩ v shapeCasts_S50000_S50000x1) ?_
  refine (stretch01_v14 (W1 m ρ c)).trans ?_
  rw [show W1 m ρ c (Proc.devRef .tc main_v12) = _ from stretch0_v12 (W0 m ρ c),
    show W1 m ρ c (Proc.devRef .tc main_v13) = _ from stretch0_v13 (W0 m ρ c),
    show W1 m ρ c (Proc.devRef .tc main_cst_2) = _ from stretch0_cst2 (W0 m ρ c),
    stretch0_v10 (W0 m ρ c), stretch0_v6 (W0 m ρ c)]
  rfl

/-! ## The arguments as the first grid finds them -/

set_option maxHeartbeats 8000000 in
theorem W3_arg0 : W3 (F := Ideal) m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp <;> rfl
set_option maxHeartbeats 8000000 in
theorem W3_arg2 : W3 (F := Ideal) m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results_simp <;> rfl
set_option maxHeartbeats 8000000 in
theorem W3_arg3 : W3 (F := Ideal) m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results_simp <;> rfl
set_option maxHeartbeats 8000000 in
theorem W3_arg4 : W3 (F := Ideal) m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results_simp <;> rfl
set_option maxHeartbeats 8000000 in
theorem W3_arg5 : W3 (F := Ideal) m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results_simp <;> rfl

/-! ## The first grid: `hidden1`; everything else as it was -/

theorem W4_v16 : W4 (F := Ideal) m ρ c (Proc.devRef .tc main_v16)
    = hidden1 (m ((c : Thread nD τ).loc main_arg0)) (m ((c : Thread nD τ).loc main_arg2)) (factorColumn m ρ c) := by
  refine (W4_arr m ρ c 3).trans ((Blocks.final0 (V3 m ρ) c).trans ?_)
  show hidden1 (W3 m ρ c (Proc.devRef .tc main_arg0)) (W3 m ρ c (Proc.devRef .tc main_arg2)) (W3 m ρ c (Proc.devRef .tc main_v15)) = _
  rw [W3_arg0, W3_arg2]; rfl

theorem W4_v5 : W4 (F := Ideal) m ρ c (Proc.devRef .tc main_v5) = srcRows m ρ c := W4_of_ne m ρ c main_v5 (by decide)
theorem W4_v6 : W4 (F := Ideal) m ρ c (Proc.devRef .tc main_v6) = dstRows m ρ c := W4_of_ne m ρ c main_v6 (by decide)
theorem W4_v15 : W4 (F := Ideal) m ρ c (Proc.devRef .tc main_v15) = factorColumn m ρ c :=
  (W4_arr m ρ c 2).trans (((dat0 (V3 m ρ) c).arrAt_in 2 rfl _).trans (A_eq0 (V3 m ρ) c 2))
theorem W4_arg3 : W4 (F := Ideal) m ρ c (Proc.devRef .tc main_arg3) = m ((c : Thread nD τ).loc main_arg3) :=
  (W4_of_ne m ρ c main_arg3 (by decide)).trans (W3_arg3 m ρ c)
theorem W4_arg4 : W4 (F := Ideal) m ρ c (Proc.devRef .tc main_arg4) = m ((c : Thread nD τ).loc main_arg4) :=
  (W4_of_ne m ρ c main_arg4 (by decide)).trans (W3_arg4 m ρ c)
theorem W4_arg5 : W4 (F := Ideal) m ρ c (Proc.devRef .tc main_arg5) = m ((c : Thread nD τ).loc main_arg5) :=
  (W4_of_ne m ρ c main_arg5 (by decide)).trans (W3_arg5 m ρ c)

/-! ## Between the grids: the first aggregate and the bias as a row -/

/-- The first aggregate: the rows of `hidden1` gathered along the edge list and summed at their landing rows. -/
def aggregate1 : (⟨2, ![50000, 128]⟩ : Shape).Idx → EReal :=
  Host.scatterAdd (F := Ideal) (φ := .f32) scatter128 (zeros ⟨2, ![50000, 128]⟩ (by decide)) (asColumn (dstRows m ρ c))
    (Host.gather gather128 (hidden1 (m ((c : Thread nD τ).loc main_arg0)) (m ((c : Thread nD τ).loc main_arg2)) (factorColumn m ρ c))
      (asColumn (wrapped (srcRows m ρ c))))

set_option maxHeartbeats 8000000 in
theorem W5_v26 : W5 (F := Ideal) m ρ c (Proc.devRef .tc main_v26) = aggregate1 m ρ c := by
  have e : W5 (F := Ideal) m ρ c (Proc.devRef .tc main_v26)
      = Host.scatterAdd (F := Ideal) (φ := .f32) scatter128 (zeros ⟨2, ![50000, 128]⟩ (by decide)) (asColumn (W4 m ρ c (Proc.devRef .tc main_v6)))
          (Host.gather gather128 (W4 m ρ c (Proc.devRef .tc main_v16)) (asColumn (wrapped (W4 m ρ c (Proc.devRef .tc main_v5))))) := by
    show StableHlo.after hostOps1 (W4 m ρ c) (Proc.devRef .tc main_v26) = _
    after_results
    all_goals rfl
  rw [e, W4_v6, W4_v16, W4_v5]; rfl

set_option maxHeartbeats 8000000 in
theorem W5_v27 : W5 (F := Ideal) m ρ c (Proc.devRef .tc main_v27)
    = shapeCast ⟨2, ![1, 128]⟩ (m ((c : Thread nD τ).loc main_arg3)) shapeCasts_S128_S1x128 := by
  have e : W5 (F := Ideal) m ρ c (Proc.devRef .tc main_v27) = shapeCast ⟨2, ![1, 128]⟩ (W4 m ρ c (Proc.devRef .tc main_arg3)) shapeCasts_S128_S1x128 := by
    show StableHlo.after hostOps1 (W4 m ρ c) (Proc.devRef .tc main_v27) = _
    after_results
    all_goals rfl
  rw [e, W4_arg3]

set_option maxHeartbeats 8000000 in
theorem W5_keep (b : Ref sig .tc) (hb : b = main_v5 ∨ b = main_v6 ∨ b = main_v15 ∨ b = main_arg4 ∨ b = main_arg5) :
    W5 (F := Ideal) m ρ c (Proc.devRef .tc b) = W4 m ρ c (Proc.devRef .tc b) := by
  show StableHlo.after hostOps1 (W4 m ρ c) (Proc.devRef .tc b) = _
  rcases hb with rfl | rfl | rfl | rfl | rfl <;> (after_results_simp <;> rfl)

/-! ## The second grid: `hidden2` of the first aggregate -/

theorem W6_v28 : W6 (F := Ideal) m ρ c (Proc.devRef .tc main_v28)
    = hidden2 (aggregate1 m ρ c) (factorColumn m ρ c) (shapeCast ⟨2, ![1, 128]⟩ (m ((c : Thread nD τ).loc main_arg3)) shapeCasts_S128_S1x128)
        (m ((c : Thread nD τ).loc main_arg4)) := by
  refine (W6_arr m ρ c 4).trans ((Blocks.final1 (V5 m ρ) c).trans ?_)
  show hidden2 (W5 m ρ c (Proc.devRef .tc main_v26)) (W5 m ρ c (Proc.devRef .tc main_v15)) (W5 m ρ c (Proc.devRef .tc main_v27))
      (W5 m ρ c (Proc.devRef .tc main_arg4)) = _
  rw [W5_v26, W5_v27, W5_keep m ρ c main_v15 (by simp), W5_keep m ρ c main_arg4 (by simp), W4_v15, W4_arg4]

theorem W6_keep (b : Ref sig .tc) (hb : ∀ w, Pipeline.arrRef spec1 w ≠ b) :
    W6 (F := Ideal) m ρ c (Proc.devRef .tc b) = W5 m ρ c (Proc.devRef .tc b) := W6_of_ne m ρ c b hb

theorem W6_v15 : W6 (F := Ideal) m ρ c (Proc.devRef .tc main_v15) = factorColumn m ρ c :=
  (W6_arr m ρ c 1).trans ((((dat1 (V5 m ρ) c).arrAt_in 1 rfl _).trans (A_eq1 (V5 m ρ) c 1)).trans
    ((W5_keep m ρ c main_v15 (by simp)).trans (W4_v15 m ρ c)))
theorem W6_v5 : W6 (F := Ideal) m ρ c (Proc.devRef .tc main_v5) = srcRows m ρ c :=
  (W6_of_ne m ρ c main_v5 (by decide)).trans ((W5_keep m ρ c main_v5 (by simp)).trans (W4_v5 m ρ c))
theorem W6_v6 : W6 (F := Ideal) m ρ c (Proc.devRef .tc main_v6) = dstRows m ρ c :=
  (W6_of_ne m ρ c main_v6 (by decide)).trans ((W5_keep m ρ c main_v6 (by simp)).trans (W4_v6 m ρ c))
theorem W6_arg5 : W6 (F := Ideal) m ρ c (Proc.devRef .tc main_arg5) = m ((c : Thread nD τ).loc main_arg5) :=
  (W6_of_ne m ρ c main_arg5 (by decide)).trans ((W5_keep m ρ c main_arg5 (by simp)).trans (W4_arg5 m ρ c))

/-! ## The last stretch, and the whole -/

set_option maxHeartbeats 16000000 in
/-- THE RESULT: the program's result array is `kernelOut` of the arguments, the node factor and the two index columns. -/
theorem result_eq (d : (⟨1, ![50000]⟩ : Shape).Idx → EReal)
    (hd : factorColumn m ρ c = shapeCast ⟨2, ![50000, 1]⟩ d shapeCasts_S50000_S50000x1) :
    W7 (F := Ideal) m ρ c (Proc.devRef .tc main_v43)
      = kernelOut (m ((c : Thread nD τ).loc main_arg0)) (m ((c : Thread nD τ).loc main_arg2)) (m ((c : Thread nD τ).loc main_arg3))
          (m ((c : Thread nD τ).loc main_arg4)) (m ((c : Thread nD τ).loc main_arg5)) d
          (asColumn (wrapped (srcRows m ρ c))) (asColumn (dstRows m ρ c)) := by
  have e : W7 (F := Ideal) m ρ c (Proc.devRef .tc main_v43)
      = addf (F := Ideal) (φ := .f32)
          (mulf (F := Ideal) (φ := .f32) (broadcastInDim ⟨2, ![50000, 64]⟩ ![0, 1] (by decide) (W6 m ρ c (Proc.devRef .tc main_v15)))
            (Host.scatterAdd (F := Ideal) (φ := .f32) scatter64 (zeros ⟨2, ![50000, 64]⟩ (by decide)) (asColumn (W6 m ρ c (Proc.devRef .tc main_v6)))
              (Host.gather gather64 (W6 m ρ c (Proc.devRef .tc main_v28)) (asColumn (wrapped (W6 m ρ c (Proc.devRef .tc main_v5)))))))
          (broadcastInDim ⟨2, ![50000, 64]⟩ ![0, 1] (by decide) (broadcastInDim ⟨2, ![1, 64]⟩ ![1] (by decide) (W6 m ρ c (Proc.devRef .tc main_arg5)))) := by
    show StableHlo.after hostOps2 (W6 m ρ c) (Proc.devRef .tc main_v43) = _
    after_results_simp
    all_goals rfl
  rw [e, W6_v15, W6_v6, W6_v28, W6_v5, W6_arg5]
  unfold kernelOut aggregate1
  rw [hd]

end Cert.KernelIdeal.ValueChain

end
-- ==== Proof.RefValue.lean ====
/-
  The reference program's result, as the composition `refOut` of whole-array operations of the arguments: the edge
  list's index vectors and the node factor first, then two rounds of "multiply by the weights, gather along the edges,
  weight each gathered row by d[src]·d[dst], sum at the landing rows, add the bias", the first round followed by the
  cut at zero.
-/
import proofs.«102051_j22308060135605_2_alg».proof.Proof.RefRun
import proofs.«102051_j22308060135605_2_alg».proof.Proof.Shared

set_option maxRecDepth 16384

noncomputable section

namespace Cert.ReferenceIdeal.RefValue

open Cert.ReferenceIdeal Cert.ReferenceIdeal.Gen
open Idealize.ShloMosaic Idealize.ShloMosaic.TcCoe Idealize.SL.Sem
open Cert.Gcn

set_option maxHeartbeats 16000000 in
/-- The run's result term is `refOut` of the argument arrays, the index vectors read off the edge-list argument. -/
theorem result_eq (m : (ℓ : Loc nD τ sig) → Buf (Elt Ideal) ℓ) (c : Dev nD) :
    Cert.ReferenceIdeal.ValueP.res_main_v64 (F := Ideal) m c
      = refOut (m ((c.tc : Thread nD τ).loc main_arg0)) (m ((c.tc : Thread nD τ).loc main_arg2)) (m ((c.tc : Thread nD τ).loc main_arg3))
          (m ((c.tc : Thread nD τ).loc main_arg4)) (m ((c.tc : Thread nD τ).loc main_arg5))
          (nodeFactor (edgeRow (m ((c.tc : Thread nD τ).loc main_arg1)) ![1, 0] slices_S2x800000_S1x800000_1_0))
          (asColumn (wrapped (edgeRow (m ((c.tc : Thread nD τ).loc main_arg1)) ![0, 0] slices_S2x800000_S1x800000_0_0)))
          (asColumn (edgeRow (m ((c.tc : Thread nD τ).loc main_arg1)) ![1, 0] slices_S2x800000_S1x800000_1_0))
          (asColumn (wrapped (edgeRow (m ((c.tc : Thread nD τ).loc main_arg1)) ![1, 0] slices_S2x800000_S1x800000_1_0))) := by
  unfold Cert.ReferenceIdeal.ValueP.res_main_v64
  rfl

end Cert.ReferenceIdeal.RefValue

end
-- ==== Proof.LibFactorOut.lean ====
/-
  TAKING A NONNEGATIVE REAL FACTOR OUT OF A SUM OF EXTENDED REALS, at the landing row of a row scatter. A general lemma
  file: it names no program.

  In the extended reals multiplication does not distribute over addition in general (`⊤ + ⊥` is junk), but a factor
  `a` with `0 ≤ a < ⊤` does distribute, so it can be taken out of any finite sum (`mul_sum_of_nonneg`). A sum over the
  update elements of a row scatter that land at one operand entry `i`, each term carrying the factor `d` read at its
  own scatter row, is such a sum: every update that lands at `i` has scatter row `i 0`, so that factor is the one
  constant `d (i 0)` and comes out (`aggregate_factor`). Last, the factor a normalisation by the inverse square root of
  a count guarded at zero produces — `if g > 0 then 1/√g else 0`, read at one element — is nonnegative and never `⊤`
  (`guardedRsqrt_nonneg_ne_top`), which is the hypothesis the first two lemmas ask of `d`.
-/
import Idealize.ShloMosaic.PureOps.Ideal
import Idealize.ShloMosaic.Lib.ValueIdx
import proofs.«102051_j22308060135605_2_alg».proof.Proof.LibRowGatherScatter

noncomputable section

open scoped BigOperators

namespace Idealize.ShloMosaic.RowOps

open Idealize.ShloMosaic Idealize.ShloMosaic.ValueIdx

/-- A factor `a` with `0 ≤ a` and `a ≠ ⊤` distributes over a finite sum of extended reals. -/
theorem mul_sum_of_nonneg {ι : Type*} (S : Finset ι) (a : EReal) (ha : 0 ≤ a) (ha' : a ≠ ⊤) (f : ι → EReal) :
    a * ∑ u ∈ S, f u = ∑ u ∈ S, a * f u := by
  classical
  refine Finset.induction_on S (by simp) ?_
  intro x s hx ih
  rw [Finset.sum_insert hx, Finset.sum_insert hx, EReal.left_distrib_of_nonneg_of_ne_top ha ha', ih]

/-- THE LANDING ROW'S FACTOR COMES OUT: over the update elements `u` of a row scatter (indices `iC`) that land at
    operand entry `i`, the sum of `(d[row iR u] · d[row iCW u]) · H[row iR u, col u]` is `d[i 0]` times the sum of
    `H[row iR u, col u] · d[row iR u]`, when `d` is nonnegative and never `⊤` and `iCW` agrees with `iC` wherever `iC`
    is not negative: every such `u` has `row iCW u = i 0`. -/
theorem aggregate_factor {N R C : Nat} (hN : 0 < N)
    (wf : ScatterDims.WF ⟨2, ![N, C]⟩ ⟨2, ![R, 1]⟩ ⟨2, ![R, C]⟩ [1] [0] [0] 1)
    (d : (⟨1, ![N]⟩ : Shape).Idx → EReal) (hd : ∀ r, 0 ≤ d r ∧ d r ≠ ⊤)
    (iR iC iCW : IVec ⟨2, ![R, 1]⟩ 32)
    (hcw : ∀ e : Fin R, 0 ≤ (iC (ix2 e 0)).toInt → iCW (ix2 e 0) = iC (ix2 e 0))
    (H : (⟨2, ![N, C]⟩ : Shape).Idx → EReal) (i : (⟨2, ![N, C]⟩ : Shape).Idx) :
    (∑ u ∈ Finset.univ.filter (fun u : (⟨2, ![R, C]⟩ : Shape).Idx =>
        (rowScatterDims N R C wf).resultIdx? u iC = some i),
      (d (ix1 (rowOf N hN iR ⟨(u 0).val, idx2_lt0 u⟩)) * d (ix1 (rowOf N hN iCW ⟨(u 0).val, idx2_lt0 u⟩)))
        * H (ix2 (rowOf N hN iR ⟨(u 0).val, idx2_lt0 u⟩) ⟨(u 1).val, idx2_lt1 u⟩))
    = d (ix1 ⟨(i 0).val, idx2_lt0 i⟩) * ∑ u ∈ Finset.univ.filter (fun u : (⟨2, ![R, C]⟩ : Shape).Idx =>
        (rowScatterDims N R C wf).resultIdx? u iC = some i),
      H (ix2 (rowOf N hN iR ⟨(u 0).val, idx2_lt0 u⟩) ⟨(u 1).val, idx2_lt1 u⟩)
        * d (ix1 (rowOf N hN iR ⟨(u 0).val, idx2_lt0 u⟩)) := by
  rw [mul_sum_of_nonneg _ _ (hd _).1 (hd _).2]
  refine Finset.sum_congr rfl ?_
  intro u hu
  have hland := (Finset.mem_filter.mp hu).2
  -- the row the gather reads off the wrapped indices for this update is the landing row
  have hrow : rowOf N hN iCW ⟨(u 0).val, idx2_lt0 u⟩ = ⟨(i 0).val, idx2_lt0 i⟩ :=
    Fin.ext (rowOf_of_lands hN wf iC iCW u i hland (hcw _))
  rw [hrow]
  ac_rfl

/-- THE GUARDED INVERSE SQUARE ROOT IS A NONNEGATIVE REAL OR ZERO: `if g > 0 then 1/√g else 0`, as the ideal instance
    reads it at one element, is nonnegative and not `⊤` for every extended real `g` (`⊥` and the reals `≤ 0` take the
    else branch; `1/√⊤ = 0`; a positive real `r` gives the real `(√r)⁻¹ ≥ 0`). -/
theorem guardedRsqrt_nonneg_ne_top (g z : EReal) (hz : z = 0) :
    0 ≤ Scalar.select (Ideal.cmp .ogt g z) (Ideal.rsqrt g) z ∧
      Scalar.select (Ideal.cmp .ogt g z) (Ideal.rsqrt g) z ≠ ⊤ := by
  subst hz
  by_cases hg : (0 : EReal) < g
  · have hc : Ideal.cmp .ogt g 0 = 1#1 := by simp [Ideal.cmp, hg]
    rw [hc, select_one]
    induction g with
    | bot => exact absurd hg (by simp)
    | top => simp
    | coe r =>
      have hr : 0 < r := by exact_mod_cast hg
      rw [Ideal.rsqrt_coe, if_neg (not_lt.mpr hr.le), if_neg hr.ne']
      exact ⟨by exact_mod_cast inv_nonneg.mpr (Real.sqrt_nonneg r), EReal.coe_ne_top _⟩
  · have hc : Ideal.cmp .ogt g 0 = 0#1 := by simp [Ideal.cmp, hg]
    rw [hc, select_zero]
    exact ⟨le_refl _, EReal.zero_ne_top⟩

end Idealize.ShloMosaic.RowOps

end
-- ==== Proof.LibHostDot.lean ====
/-
  A host matrix product read at one entry.

  The host's `dot_general` of an M × K matrix with a K × N matrix — left contracting axis 1, right contracting axis 0, no
  batch axis: the plain product l · r — is at the ideal values the sum over the contraction coordinate k of
  l (i, k) · r (k, j): entry (i, j) is the dot product of row i of the left operand with column j of the right one.
  The statement is over any dimension record whose six lists are those, whatever name a printed record carries.
-/
import Idealize.ShloMosaic.Lib.ValueIdx
import Idealize.ShloMosaic.PureOps.Ideal.Laws

noncomputable section

open scoped BigOperators

namespace Idealize.ShloMosaic.HostDot

open Idealize.ShloMosaic Idealize.ShloMosaic.ValueIdx

/-- Entry (i, j) of an M × K by K × N host `dot_general` contracting the left operand's columns with the right
    operand's rows, at the ideal values: the dot product of the left operand's row i with the right operand's column j. -/
theorem dotGeneral_apply {M K N : Nat} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (i : Fin M) (j : Fin N) :
    Host.dotGeneral D prec l r (ix2 i j) = ∑ k : Fin K, l (ix2 i k) * r (ix2 k j) := by
  obtain ⟨lc, rc, ln, rn, lb, rb, wf⟩ := D
  dsimp only at hlc hrc hln hrn hlb hrb
  subst hlc hrc hln hrn hlb hrb
  refine (Ideal.dotGeneral_apply _ prec .single l r (ix2 i j)).trans ?_
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 i k :=
    funext fun a => Fin.ext (by
      match a with
      | ⟨0, _⟩ =>
        unfold DotDims.lhsIdx
        rw [dif_neg (by exact List.not_mem_nil), dif_pos (by exact List.mem_singleton.mpr rfl)]
        rfl
      | ⟨1, _⟩ => exact (DotDims.lhsIdx_val_of_single _ rfl _ _).trans hk)
  have er : DotDims.rhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 k j :=
    funext fun a => Fin.ext (by
      match a with
      | ⟨0, _⟩ => exact (DotDims.rhsIdx_val_of_single _ rfl _ _).trans hk
      | ⟨1, _⟩ =>
        unfold DotDims.rhsIdx
        rw [dif_neg (by exact List.not_mem_nil), dif_pos (by exact List.mem_singleton.mpr rfl)]
        rfl)
  rw [el, er]

end Idealize.ShloMosaic.HostDot

end
-- ==== Proof.AggregateRead.lean ====
/-
  ONE GRAPH-CONVOLUTION AGGREGATION READ AT AN ENTRY, and the identity between its two weightings.

  An aggregation gathers the rows of a node array along the edge entries' source rows and sums them at the entries'
  landing rows, starting from zero. Read at entry `i` it is the sum, over the update elements that land at `i`, of the
  gathered element (`scatterAdd_gather_apply`); with every gathered row first multiplied by a per-edge weight it is the
  same sum with the weight in each term (`scatterAdd_weighted_apply`). When the weight is the node factor at the source
  row times the node factor at the landing row (`edgeWeight_apply`) and the factor is nonnegative and never `⊤`, the
  landing row's factor is the same in every term of the sum at `i` and comes out: the weighted aggregate at `i` is
  `d[i 0]` times the plain aggregate of the rows pre-scaled by `d` (`aggregate_eq`). Before these, the index arrays:
  a vector read as a one-column array (`asColumn_apply`), and an index that is not negative is left alone by the
  wrap-around of negative indices (`wrapped_of_nonneg`, `asColumn_wrapped_of_nonneg`).
-/
import proofs.«102051_j22308060135605_2_alg».proof.Proof.Terms
import proofs.«102051_j22308060135605_2_alg».proof.Proof.LibFactorOut
import Idealize.ShloMosaic.Lib.Pipeline.Value
import Idealize.ShloMosaic.PureOps.Ideal.Laws

noncomputable section

open scoped BigOperators

namespace Cert.Gcn

open Idealize.ShloMosaic Idealize.ShloMosaic.ValueIdx Idealize.ShloMosaic.RowOps

/-! ## The index arrays -/

/-- A vector read as a one-column array: entry `(e, 0)` is the vector's entry `e`. -/
theorem asColumn_apply (v : IVec ⟨1, ![850000]⟩ 32) (e : Fin 850000) : asColumn v (ix2 e 0) = v (ix1 e) := by
  unfold asColumn
  refine broadcastInDim_apply _ _ _ _ (ix1 e) ?_
  intro a
  obtain rfl : a = 0 := Subsingleton.elim _ _
  have h0 : ¬ ((850000 : Nat) = 1) := by decide
  exact (if_neg h0).symm

/-- An index that is not negative, read signed, is left alone by the wrap-around. -/
theorem wrapped_of_nonneg (v : IVec ⟨1, ![850000]⟩ 32) (e : Fin 850000) (h : 0 ≤ (v (ix1 e)).toInt) :
    wrapped v (ix1 e) = v (ix1 e) := by
  have hs : (v (ix1 e)).slt 0#32 = false := by
    unfold BitVec.slt
    rw [decide_eq_false_iff_not]
    have hz : (0#32 : BitVec 32).toInt = 0 := by decide
    rw [hz]
    omega
  have hc : IntOp.cmpi .slt (v (ix1 e)) 0#32 = 0#1 := by
    show BitVec.ofBool ((v (ix1 e)).slt 0#32) = 0#1
    rw [hs]; rfl
  show Scalar.select (IntOp.cmpi .slt (v (ix1 e)) 0#32) _ (v (ix1 e)) = v (ix1 e)
  rw [hc, select_zero]

/-- The same through the one-column reading. -/
theorem asColumn_wrapped_of_nonneg (v : IVec ⟨1, ![850000]⟩ 32) (e : Fin 850000)
    (h : 0 ≤ (asColumn v (ix2 e 0)).toInt) : asColumn (wrapped v) (ix2 e 0) = asColumn v (ix2 e 0) := by
  rw [asColumn_apply] at h
  rw [asColumn_apply, asColumn_apply]
  exact wrapped_of_nonneg v e h

/-! ## The aggregation read at an entry -/

/-- Every rank-2 index is `ix2` of its coordinates rebuilt from their values. -/
private theorem eq_ix2_mk {n0 n1 : Nat} (u : (⟨2, ![n0, n1]⟩ : Shape).Idx) :
    u = ix2 ⟨(u 0).val, idx2_lt0 u⟩ ⟨(u 1).val, idx2_lt1 u⟩ := by
  funext a; match a with | ⟨0, _⟩ => rfl | ⟨1, _⟩ => rfl

/-- The all-zero array reads the extended real `0` everywhere. -/
theorem zeros_apply (s : Shape) (h : (⟨0, ![]⟩ : Shape).BroadcastsInDim s ![]) (i : s.Idx) : zeros s h i = 0 := by
  show Ideal.ofBits .f32 0x00000000#32 = 0
  exact Ideal.ofBits_zero_f32

/-- A summing scatter at the ideal values, read at `i`: the operand there plus the sum of the update elements that
    land at `i`. -/
theorem scatterAdd_apply {s si su : Shape} {w : Nat} (D : ScatterDims s si su) (x : s.Idx → EReal) (idx : IVec si w)
    (upd : su.Idx → EReal) (i : s.Idx) :
    Host.scatterAdd (F := Ideal) (φ := .f32) D x idx upd i
      = x i + ∑ j ∈ Finset.univ.filter (fun j => D.resultIdx? j idx = some i), upd j := rfl

/-- THE PLAIN AGGREGATE AT `i`: the sum, over the update elements `u` that land at `i`, of `X` at `u`'s source row and
    `u`'s column. -/
theorem scatterAdd_gather_apply {C : Nat} (wfg : GatherDims.WF ⟨2, ![50000, C]⟩ ⟨2, ![850000, 1]⟩ ⟨2, ![850000, C]⟩ [1] [0] [] [0] [] 1 ![1, C])
    (wfs : ScatterDims.WF ⟨2, ![50000, C]⟩ ⟨2, ![850000, 1]⟩ ⟨2, ![850000, C]⟩ [1] [0] [0] 1)
    (hz : (⟨0, ![]⟩ : Shape).BroadcastsInDim ⟨2, ![50000, C]⟩ ![])
    (X : (⟨2, ![50000, C]⟩ : Shape).Idx → EReal) (iR iC : IVec ⟨2, ![850000, 1]⟩ 32)
    (i : (⟨2, ![50000, C]⟩ : Shape).Idx) :
    Host.scatterAdd (F := Ideal) (φ := .f32) (rowScatterDims 50000 850000 C wfs) (zeros ⟨2, ![50000, C]⟩ hz) iC
        (Host.gather (rowGatherDims 50000 850000 C wfg) X iR) i
    = ∑ u ∈ Finset.univ.filter (fun u : (⟨2, ![850000, C]⟩ : Shape).Idx =>
        (rowScatterDims 50000 850000 C wfs).resultIdx? u iC = some i),
        X (ix2 (rowOf 50000 (by decide) iR ⟨(u 0).val, idx2_lt0 u⟩) ⟨(u 1).val, idx2_lt1 u⟩) := by
  rw [scatterAdd_apply, zeros_apply, zero_add]
  refine Finset.sum_congr rfl ?_
  intro u _
  exact (congrArg _ (eq_ix2_mk u)).trans (rowGather_apply (by decide) wfg X iR _ _)

/-- The per-edge weight at entry `e`: the node factor at the source row times the node factor at the landing row. -/
theorem edgeWeight_apply (d : (⟨1, ![50000]⟩ : Shape).Idx → EReal) (iR iCW : IVec ⟨2, ![850000, 1]⟩ 32)
    (e : Fin 850000) :
    edgeWeight d iR iCW (ix1 e)
      = d (ix1 (rowOf 50000 (by decide) iR e)) * d (ix1 (rowOf 50000 (by decide) iCW e)) := by
  unfold edgeWeight
  rw [mulf_apply, vecGather_apply (by decide), vecGather_apply (by decide)]

/-- A weight vector laid along the rows of an `850000 × C` array (as a one-column array, then along the columns) reads,
    at `u`, the weight of `u`'s row. -/
theorem rowWeight_apply {C : Nat}
    (hb1 : (⟨1, ![850000]⟩ : Shape).BroadcastsInDim ⟨2, ![850000, 1]⟩ ![0])
    (hb2 : (⟨2, ![850000, 1]⟩ : Shape).BroadcastsInDim ⟨2, ![850000, C]⟩ ![0, 1])
    (ew : (⟨1, ![850000]⟩ : Shape).Idx → EReal) (u : (⟨2, ![850000, C]⟩ : Shape).Idx) :
    broadcastInDim ⟨2, ![850000, C]⟩ ![0, 1] hb2 (broadcastInDim ⟨2, ![850000, 1]⟩ ![0] hb1 ew) u
      = ew (ix1 ⟨(u 0).val, idx2_lt0 u⟩) := by
  have h0 : ¬ ((850000 : Nat) = 1) := by decide
  -- along the columns: the one-column array at `(u 0, 0)` …
  have hw2 : broadcastInDim ⟨2, ![850000, C]⟩ ![0, 1] hb2 (broadcastInDim ⟨2, ![850000, 1]⟩ ![0] hb1 ew) u
      = broadcastInDim ⟨2, ![850000, 1]⟩ ![0] hb1 ew (ix2 ⟨(u 0).val, idx2_lt0 u⟩ 0) := by
    refine broadcastInDim_apply _ _ _ _ _ ?_
    intro a
    match a with
    | ⟨0, _⟩ => exact (if_neg h0).symm
    | ⟨1, _⟩ => exact (if_pos rfl).symm
  -- … which is the weight vector at `u 0`
  have hw1 : broadcastInDim ⟨2, ![850000, 1]⟩ ![0] hb1 ew (ix2 ⟨(u 0).val, idx2_lt0 u⟩ 0)
      = ew (ix1 ⟨(u 0).val, idx2_lt0 u⟩) := by
    refine broadcastInDim_apply _ _ _ _ _ ?_
    intro a
    obtain rfl : a = 0 := Subsingleton.elim _ _
    exact (if_neg h0).symm
  rw [hw2, hw1]

/-- THE WEIGHTED AGGREGATE AT `i`: the same sum with each term multiplied by the weight of `u`'s edge entry. -/
theorem scatterAdd_weighted_apply {C : Nat} (wfg : GatherDims.WF ⟨2, ![50000, C]⟩ ⟨2, ![850000, 1]⟩ ⟨2, ![850000, C]⟩ [1] [0] [] [0] [] 1 ![1, C])
    (wfs : ScatterDims.WF ⟨2, ![50000, C]⟩ ⟨2, ![850000, 1]⟩ ⟨2, ![850000, C]⟩ [1] [0] [0] 1)
    (hz : (⟨0, ![]⟩ : Shape).BroadcastsInDim ⟨2, ![50000, C]⟩ ![])
    (hb1 : (⟨1, ![850000]⟩ : Shape).BroadcastsInDim ⟨2, ![850000, 1]⟩ ![0])
    (hb2 : (⟨2, ![850000, 1]⟩ : Shape).BroadcastsInDim ⟨2, ![850000, C]⟩ ![0, 1])
    (ew : (⟨1, ![850000]⟩ : Shape).Idx → EReal) (Y : (⟨2, ![50000, C]⟩ : Shape).Idx → EReal)
    (iR iC : IVec ⟨2, ![850000, 1]⟩ 32) (i : (⟨2, ![50000, C]⟩ : Shape).Idx) :
    Host.scatterAdd (F := Ideal) (φ := .f32) (rowScatterDims 50000 850000 C wfs) (zeros ⟨2, ![50000, C]⟩ hz) iC
        (mulf (F := Ideal) (φ := .f32)
          (broadcastInDim ⟨2, ![850000, C]⟩ ![0, 1] hb2 (broadcastInDim ⟨2, ![850000, 1]⟩ ![0] hb1 ew))
          (Host.gather (rowGatherDims 50000 850000 C wfg) Y iR)) i
    = ∑ u ∈ Finset.univ.filter (fun u : (⟨2, ![850000, C]⟩ : Shape).Idx =>
        (rowScatterDims 50000 850000 C wfs).resultIdx? u iC = some i),
        ew (ix1 ⟨(u 0).val, idx2_lt0 u⟩) * Y (ix2 (rowOf 50000 (by decide) iR ⟨(u 0).val, idx2_lt0 u⟩) ⟨(u 1).val, idx2_lt1 u⟩) := by
  rw [scatterAdd_apply, zeros_apply, zero_add]
  refine Finset.sum_congr rfl ?_
  intro u _
  rw [mulf_apply, rowWeight_apply]
  exact congrArg _ ((congrArg _ (eq_ix2_mk u)).trans (rowGather_apply (by decide) wfg Y iR _ _))

/-- THE TWO WEIGHTINGS AGREE UP TO THE LANDING ROW'S FACTOR: the aggregate of the rows of `H` weighted per edge by
    `d[source] · d[landing]` is, at `i`, `d[i 0]` times the plain aggregate of the rows of `H` pre-scaled by `d` — for a
    factor `d` that is nonnegative and never `⊤`, and landing rows `iCW` that agree with the scatter's `iC` wherever
    `iC` is not negative. -/
theorem aggregate_eq {C : Nat} (wfg : GatherDims.WF ⟨2, ![50000, C]⟩ ⟨2, ![850000, 1]⟩ ⟨2, ![850000, C]⟩ [1] [0] [] [0] [] 1 ![1, C])
    (wfs : ScatterDims.WF ⟨2, ![50000, C]⟩ ⟨2, ![850000, 1]⟩ ⟨2, ![850000, C]⟩ [1] [0] [0] 1)
    (hz : (⟨0, ![]⟩ : Shape).BroadcastsInDim ⟨2, ![50000, C]⟩ ![])
    (hb1 : (⟨1, ![850000]⟩ : Shape).BroadcastsInDim ⟨2, ![850000, 1]⟩ ![0])
    (hb2 : (⟨2, ![850000, 1]⟩ : Shape).BroadcastsInDim ⟨2, ![850000, C]⟩ ![0, 1])
    (d : (⟨1, ![50000]⟩ : Shape).Idx → EReal) (hd : ∀ r, 0 ≤ d r ∧ d r ≠ ⊤)
    (iR iC iCW : IVec ⟨2, ![850000, 1]⟩ 32)
    (hcw : ∀ e : Fin 850000, 0 ≤ (iC (ix2 e 0)).toInt → iCW (ix2 e 0) = iC (ix2 e 0))
    (H : (⟨2, ![50000, C]⟩ : Shape).Idx → EReal) (i : (⟨2, ![50000, C]⟩ : Shape).Idx) :
    Host.scatterAdd (F := Ideal) (φ := .f32) (rowScatterDims 50000 850000 C wfs) (zeros ⟨2, ![50000, C]⟩ hz) iC
        (mulf (F := Ideal) (φ := .f32)
          (broadcastInDim ⟨2, ![850000, C]⟩ ![0, 1] hb2
            (broadcastInDim ⟨2, ![850000, 1]⟩ ![0] hb1 (edgeWeight d iR iCW)))
          (Host.gather (rowGatherDims 50000 850000 C wfg) H iR)) i
    = d (ix1 ⟨(i 0).val, idx2_lt0 i⟩) *
      Host.scatterAdd (F := Ideal) (φ := .f32) (rowScatterDims 50000 850000 C wfs) (zeros ⟨2, ![50000, C]⟩ hz) iC
        (Host.gather (rowGatherDims 50000 850000 C wfg)
          (fun y => H y * d (ix1 ⟨(y 0).val, idx2_lt0 y⟩)) iR) i := by
  rw [scatterAdd_weighted_apply wfg wfs hz hb1 hb2, scatterAdd_gather_apply wfg wfs hz]
  simp only [edgeWeight_apply]
  exact aggregate_factor (by decide) wfs d hd iR iC iCW hcw H i

end Cert.Gcn

end
-- ==== Proof.Bridge.lean ====
/-
  The two programs compute the same array.

  The reference weights every gathered row by  d[source] · d[landing]  before summing it at its landing row; the kernel
  program scales the rows by d[source] before they are gathered (inside its dense stages) and by d[landing] after they
  are summed. The node factor d is nonnegative and never ⊤, so the landing row's factor comes out of each sum, and the
  two agree layer by layer:
    • the first dense stage is the host product x · W₁ with each row scaled by its factor;
    • so the reference's first weighted aggregate is, at row r, d[r] times the plain aggregate of the first dense stage;
    • adding the bias and cutting off the negative part, the reference's hidden layer at (r, k) is what the second dense
      stage feeds its product with;
    • so the second dense stage is the host product (hidden layer) · W₂ with each row scaled by its factor;
    • and the reference's second weighted aggregate is d[r] times the plain aggregate of the second dense stage, which
      is the kernel program's result before the bias.
  First of all, the node factor — an inverse square root guarded at zero — is nonnegative and never ⊤.
-/
import proofs.«102051_j22308060135605_2_alg».proof.Proof.Terms
import proofs.«102051_j22308060135605_2_alg».proof.Proof.Shared
import proofs.«102051_j22308060135605_2_alg».proof.Proof.LibFactorOut
import proofs.«102051_j22308060135605_2_alg».proof.Proof.LibHostDot
import proofs.«102051_j22308060135605_2_alg».proof.Proof.LibKeptColumn
import proofs.«102051_j22308060135605_2_alg».proof.Proof.AggregateRead
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

noncomputable section

open scoped BigOperators

namespace Cert.Gcn

open Idealize.ShloMosaic Idealize.ShloMosaic.ValueIdx Idealize.ShloMosaic.RowOps

/-! ## The node factor is a nonnegative real or zero -/

namespace Bridge

/-- The all-zero array reads zero everywhere. -/
theorem zeros_apply (s : Shape) (h : (⟨0, ![]⟩ : Shape).BroadcastsInDim s ![]) (i : s.Idx) : zeros s h i = 0 := by
  show Ideal.ofBits .f32 0x00000000#32 = 0
  exact Ideal.ofBits_zero_f32

/-- An inverse square root guarded at zero, taken entry by entry of any array of counts `g` against an array `z` of zeros,
    is at every entry nonnegative and not `⊤`. -/
theorem guardedFactor_nonneg_ne_top (g z : (⟨1, ![50000]⟩ : Shape).Idx → EReal) (hz : ∀ r, z r = 0)
    (r : (⟨1, ![50000]⟩ : Shape).Idx) :
    0 ≤ select (cmpf (F := Ideal) (φ := .f32) .ogt g z) (Host.rsqrt (F := Ideal) (φ := .f32) g) z r
      ∧ select (cmpf (F := Ideal) (φ := .f32) .ogt g z) (Host.rsqrt (F := Ideal) (φ := .f32) g) z r ≠ ⊤ :=
  guardedRsqrt_nonneg_ne_top (g r) (z r) (hz r)

end Bridge

/-- The node factor at every node is nonnegative and not `⊤`: it is the inverse square root of the landing count where
    that is positive, and zero elsewhere. -/
theorem nodeFactor_nonneg_ne_top (dst : IVec ⟨1, ![850000]⟩ 32) :
    ∀ r, 0 ≤ nodeFactor dst r ∧ nodeFactor dst r ≠ ⊤ := by
  intro r
  unfold nodeFactor
  exact Bridge.guardedFactor_nonneg_ne_top (landingCount dst) (zeros ⟨1, ![50000]⟩ (by decide))
    (fun r => Bridge.zeros_apply _ _ r) r

namespace Bridge

/-! ## Layout readings at an index -/

/-- A vector laid as one row and then along every row of an m × n array reads, at (r, k), its entry k. -/
theorem biasRows_apply {m n : Nat} (hn : ¬ n = 1) (b : (⟨1, ![n]⟩ : Shape).Idx → EReal)
    (h1 : (⟨1, ![n]⟩ : Shape).BroadcastsInDim ⟨2, ![1, n]⟩ ![1])
    (h2 : (⟨2, ![1, n]⟩ : Shape).BroadcastsInDim ⟨2, ![m, n]⟩ ![0, 1]) (r : Fin m) (k : Fin n) :
    broadcastInDim ⟨2, ![m, n]⟩ ![0, 1] h2 (broadcastInDim ⟨2, ![1, n]⟩ ![1] h1 b) (ix2 r k) = b (ix1 k) := by
  rw [broadcastInDim_oneRow_apply]
  refine broadcastInDim_apply _ _ _ _ (ix1 k) ?_
  intro a
  obtain rfl : a = 0 := Subsingleton.elim _ _
  exact (if_neg hn).symm

/-- A one-column array laid along the columns of an m × n array reads, at (r, j), its entry of row r. -/
theorem columnAlong_apply {m n : Nat} (hm : ¬ m = 1) (v : (⟨2, ![m, 1]⟩ : Shape).Idx → EReal)
    (h : (⟨2, ![m, 1]⟩ : Shape).BroadcastsInDim ⟨2, ![m, n]⟩ ![0, 1]) (r : Fin m) (j : Fin n) :
    broadcastInDim ⟨2, ![m, n]⟩ ![0, 1] h v (ix2 r j) = v (ix2 r (0 : Fin 1)) := by
  refine broadcastInDim_apply _ _ _ _ (ix2 r (0 : Fin 1)) ?_
  intro a
  match a with
  | ⟨0, _⟩ => exact (if_neg hm).symm
  | ⟨1, _⟩ => exact (if_pos rfl).symm

/-! ## The first layer -/

/-- The first dense stage is the host product x · W₁ with each row scaled by the row's factor. -/
theorem hidden1_eq (x : (⟨2, ![50000, 128]⟩ : Shape).Idx → EReal) (w1 : (⟨2, ![128, 128]⟩ : Shape).Idx → EReal)
    (d : (⟨1, ![50000]⟩ : Shape).Idx → EReal) :
    hidden1 x w1 (shapeCast ⟨2, ![50000, 1]⟩ d (by decide))
      = fun y => Host.dotGeneral (F := Ideal) (φ₁ := .f32) (φ₂ := .f32) dot1 none x w1 y * d (ix1 ⟨(y 0).val, idx2_lt0 y⟩) := by
  funext y
  obtain ⟨r, k, rfl⟩ : ∃ (r : Fin 50000) (k : Fin 128), y = ix2 r k := ⟨y 0, y 1, eq_ix2 y⟩
  unfold hidden1
  refine congrArg₂ (· * ·) ?_ ?_
  · exact (HostDot.dotGeneral_apply dot1 rfl rfl rfl rfl rfl rfl none x w1 r k).symm
  · exact KeptColumn.shapeCast_a_a1_apply d _ _ 0

/-- The reference's first weighted aggregate is, at every entry, the landing row's factor times the plain aggregate of
    the first dense stage. -/
theorem layer1_aggregate (x : (⟨2, ![50000, 128]⟩ : Shape).Idx → EReal) (w1 : (⟨2, ![128, 128]⟩ : Shape).Idx → EReal)
    (d : (⟨1, ![50000]⟩ : Shape).Idx → EReal) (hd : ∀ r, 0 ≤ d r ∧ d r ≠ ⊤)
    (iR iC iCW : IVec ⟨2, ![850000, 1]⟩ 32)
    (hcw : ∀ e : Fin 850000, 0 ≤ (iC (ix2 e 0)).toInt → iCW (ix2 e 0) = iC (ix2 e 0))
    (i : (⟨2, ![50000, 128]⟩ : Shape).Idx) :
    Host.scatterAdd (F := Ideal) (φ := .f32) scatter128 (zeros ⟨2, ![50000, 128]⟩ (by decide)) iC
        (mulf (F := Ideal) (φ := .f32)
          (broadcastInDim ⟨2, ![850000, 128]⟩ ![0, 1] (by decide) (broadcastInDim ⟨2, ![850000, 1]⟩ ![0] (by decide) (edgeWeight d iR iCW)))
          (Host.gather gather128 (Host.dotGeneral (F := Ideal) (φ₁ := .f32) (φ₂ := .f32) dot1 none x w1) iR)) i
    = d (ix1 ⟨(i 0).val, idx2_lt0 i⟩) *
      Host.scatterAdd (F := Ideal) (φ := .f32) scatter128 (zeros ⟨2, ![50000, 128]⟩ (by decide)) iC
        (Host.gather gather128 (hidden1 x w1 (shapeCast ⟨2, ![50000, 1]⟩ d (by decide))) iR) i := by
  rw [hidden1_eq]
  exact aggregate_eq _ _ _ _ _ d hd iR iC iCW hcw _ i

/-- The reference's hidden layer at row `r` and column `k`: the plain aggregate of the first dense stage scaled by the
    row's factor, plus the bias, negative part cut off — what the second dense stage multiplies by the second weights. -/
theorem refHidden_apply (x : (⟨2, ![50000, 128]⟩ : Shape).Idx → EReal) (w1 : (⟨2, ![128, 128]⟩ : Shape).Idx → EReal)
    (b1 : (⟨1, ![128]⟩ : Shape).Idx → EReal) (d : (⟨1, ![50000]⟩ : Shape).Idx → EReal) (hd : ∀ r, 0 ≤ d r ∧ d r ≠ ⊤)
    (iR iC iCW : IVec ⟨2, ![850000, 1]⟩ 32)
    (hcw : ∀ e : Fin 850000, 0 ≤ (iC (ix2 e 0)).toInt → iCW (ix2 e 0) = iC (ix2 e 0))
    (r : Fin 50000) (k : Fin 128) :
    refHidden x w1 b1 d iR iC iCW (ix2 r k)
      = max (Host.scatterAdd (F := Ideal) (φ := .f32) scatter128 (zeros ⟨2, ![50000, 128]⟩ (by decide)) iC
              (Host.gather gather128 (hidden1 x w1 (shapeCast ⟨2, ![50000, 1]⟩ d (by decide))) iR) (ix2 r k)
            * shapeCast ⟨2, ![50000, 1]⟩ d (by decide) (ix2 r 0)
          + shapeCast ⟨2, ![1, 128]⟩ b1 (by decide) (ix2 0 k)) 0 := by
  unfold refHidden
  rw [maximumf_apply, addf_apply, zeros_apply]
  refine congrArg (fun z => max z 0) (congrArg₂ (· + ·) ?_ ?_)
  · refine (layer1_aggregate x w1 d hd iR iC iCW hcw (ix2 r k)).trans ?_
    rw [KeptColumn.shapeCast_a_a1_apply]
    exact mul_comm _ _
  · rw [shapeCast_a_1a_apply]
    exact biasRows_apply (by decide) b1 _ _ r k

/-! ## The second layer -/

/-- The second dense stage, fed with the plain aggregate of the first, is the host product (hidden layer) · W₂ with each
    row scaled by the row's factor. -/
theorem hidden2_eq (x : (⟨2, ![50000, 128]⟩ : Shape).Idx → EReal) (w1 : (⟨2, ![128, 128]⟩ : Shape).Idx → EReal)
    (b1 : (⟨1, ![128]⟩ : Shape).Idx → EReal) (w2 : (⟨2, ![128, 64]⟩ : Shape).Idx → EReal)
    (d : (⟨1, ![50000]⟩ : Shape).Idx → EReal) (hd : ∀ r, 0 ≤ d r ∧ d r ≠ ⊤)
    (iR iC iCW : IVec ⟨2, ![850000, 1]⟩ 32)
    (hcw : ∀ e : Fin 850000, 0 ≤ (iC (ix2 e 0)).toInt → iCW (ix2 e 0) = iC (ix2 e 0)) :
    hidden2
        (Host.scatterAdd (F := Ideal) (φ := .f32) scatter128 (zeros ⟨2, ![50000, 128]⟩ (by decide)) iC
          (Host.gather gather128 (hidden1 x w1 (shapeCast ⟨2, ![50000, 1]⟩ d (by decide))) iR))
        (shapeCast ⟨2, ![50000, 1]⟩ d (by decide)) (shapeCast ⟨2, ![1, 128]⟩ b1 (by decide)) w2
      = fun y => Host.dotGeneral (F := Ideal) (φ₁ := .f32) (φ₂ := .f32) dot2 none (refHidden x w1 b1 d iR iC iCW) w2 y
          * d (ix1 ⟨(y 0).val, idx2_lt0 y⟩) := by
  funext y
  obtain ⟨r, q, rfl⟩ : ∃ (r : Fin 50000) (q : Fin 64), y = ix2 r q := ⟨y 0, y 1, eq_ix2 y⟩
  unfold hidden2
  refine congrArg₂ (· * ·) ?_ ?_
  · refine Eq.trans ?_ (HostDot.dotGeneral_apply dot2 rfl rfl rfl rfl rfl rfl none _ w2 r q).symm
    refine Finset.sum_congr rfl fun k _ => congrArg₂ (· * ·) ?_ rfl
    exact (refHidden_apply x w1 b1 d hd iR iC iCW hcw r k).symm
  · exact KeptColumn.shapeCast_a_a1_apply d _ _ 0

end Bridge

open Bridge in
/-- THE TWO PROGRAMS AGREE: for a node factor that is nonnegative and never `⊤`, and landing rows `iCW` that agree with
    the scatter's `iC` wherever `iC` is not negative, the kernel program's result is the reference's. -/
theorem kernelOut_eq_refOut (x : (⟨2, ![50000, 128]⟩ : Shape).Idx → EReal) (w1 : (⟨2, ![128, 128]⟩ : Shape).Idx → EReal)
    (b1 : (⟨1, ![128]⟩ : Shape).Idx → EReal) (w2 : (⟨2, ![128, 64]⟩ : Shape).Idx → EReal) (b2 : (⟨1, ![64]⟩ : Shape).Idx → EReal)
    (d : (⟨1, ![50000]⟩ : Shape).Idx → EReal) (hd : ∀ r, 0 ≤ d r ∧ d r ≠ ⊤)
    (iR iC iCW : IVec ⟨2, ![850000, 1]⟩ 32)
    (hcw : ∀ e : Fin 850000, 0 ≤ (iC (ix2 e 0)).toInt → iCW (ix2 e 0) = iC (ix2 e 0)) :
    kernelOut x w1 b1 w2 b2 d iR iC = refOut x w1 b1 w2 b2 d iR iC iCW := by
  funext i
  obtain ⟨c, j, rfl⟩ : ∃ (c : Fin 50000) (j : Fin 64), i = ix2 c j := ⟨i 0, i 1, eq_ix2 i⟩
  unfold kernelOut refOut
  rw [addf_apply, addf_apply]
  refine congrArg₂ (· + ·) ?_ rfl
  rw [mulf_apply, hidden2_eq x w1 b1 w2 d hd iR iC iCW hcw]
  refine Eq.trans (congrArg₂ (· * ·) ?_ rfl) (aggregate_eq _ _ _ _ _ d hd iR iC iCW hcw _ (ix2 c j)).symm
  rw [columnAlong_apply (by decide)]
  exact KeptColumn.shapeCast_a_a1_apply d _ _ 0

end Cert.Gcn

end
-- ==== Proof.lean ====
/-
  The certificate of a two-layer graph convolution against its reference.

  Both programs read one edge list (source rows, landing rows, with self loops), form the node factor
  d = 1 / sqrt (landing count) (zero where nothing lands) and apply, twice, "multiply by a weight matrix, gather rows
  along the edges, sum them at the landing rows, add a bias" — the first round followed by a cut at zero. The reference
  weights every gathered row by d[src] · d[dst]; the kernel program scales the rows by d[src] before the gather (inside
  the dense stage, a grid of ten row blocks) and the landing row by d[dst] after the sum. The two agree because d[dst] is
  the same nonnegative real for every entry landing on one row, and such a factor comes out of a finite sum of extended
  reals; nothing else is used — no distributivity at an infinity, so the inputs' finiteness is never opened.

  The three frames: the two kernel programs' are the generated ones; the reference's is its run with the result dropped.
  The ideal pass rewrote nothing, so `preserves` is trivial. `algebraic`: the kernel program's run read at its result
  (KernelRun, KernelValue: `kernelOut`), the reference's run (RefRun, RefValue: `refOut`), and the bridge
  `kernelOut = refOut` (Bridge).
-/
import proofs.«102051_j22308060135605_2_alg».proof.Defs
import proofs.«102051_j22308060135605_2_alg».proof.Proof.Gen.Kernel
import proofs.«102051_j22308060135605_2_alg».proof.Proof.Gen.Kernel.Skeleton
import proofs.«102051_j22308060135605_2_alg».proof.Proof.Gen.Kernel.Launch
import proofs.«102051_j22308060135605_2_alg».proof.Proof.Gen.Kernel.Points
import proofs.«102051_j22308060135605_2_alg».proof.Proof.Gen.Kernel.Frame
import proofs.«102051_j22308060135605_2_alg».proof.Proof.Gen.KernelIdeal
import proofs.«102051_j22308060135605_2_alg».proof.Proof.Gen.KernelIdeal.Skeleton
import proofs.«102051_j22308060135605_2_alg».proof.Proof.Gen.KernelIdeal.Launch
import proofs.«102051_j22308060135605_2_alg».proof.Proof.Gen.KernelIdeal.Points
import proofs.«102051_j22308060135605_2_alg».proof.Proof.Gen.KernelIdeal.Frame
import proofs.«102051_j22308060135605_2_alg».proof.Proof.Gen.ReferenceIdeal
import proofs.«102051_j22308060135605_2_alg».proof.Proof.Gen.Pre_finite_inputs
import proofs.«102051_j22308060135605_2_alg».proof.Proof.KernelRun
import proofs.«102051_j22308060135605_2_alg».proof.Proof.KernelValue
import proofs.«102051_j22308060135605_2_alg».proof.Proof.RefRun
import proofs.«102051_j22308060135605_2_alg».proof.Proof.RefValue
import proofs.«102051_j22308060135605_2_alg».proof.Proof.Bridge
import proofs.«102051_j22308060135605_2_alg».proof.Proof.AggregateRead
import Idealize.ShloMosaic.Adequacy
import Idealize.ShloMosaic.Init

set_option maxRecDepth 16384

noncomputable section

namespace Cert.Proof

open Idealize.ShloMosaic Idealize.ShloMosaic.TcCoe Idealize.SL.Sem Cert.Gcn

theorem frame_kernel : Cert.frame_Kernel := fun m ρ _ => Cert.Kernel.Gen.frame m ρ
theorem frame_kernelIdeal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.ValueP.run (F := Ideal) m ρ)

/-- Both programs end with the same result: `kernelOut` of the arguments on the kernel's side, `refOut` of arguments that
    agree on the reference's, and the two compositions are one function. -/
theorem algebraic : Cert.algebraic_KernelIdeal_ReferenceIdeal := by
  intro m ρ m' ρ' _ hagree
  refine ⟨fun c => kernelOut (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (nodeFactor (edgeRow (m ((c.tc : Thread Cert.KernelIdeal.nD Cert.KernelIdeal.τ).loc Cert.KernelIdeal.main_arg1)) ![1, 0] Cert.KernelIdeal.Gen.slices_S2x800000_S1x800000_1_0))
      (asColumn (wrapped (edgeRow (m ((c.tc : Thread Cert.KernelIdeal.nD Cert.KernelIdeal.τ).loc Cert.KernelIdeal.main_arg1)) ![0, 0] Cert.KernelIdeal.Gen.slices_S2x800000_S1x800000_0_0)))
      (asColumn (edgeRow (m ((c.tc : Thread Cert.KernelIdeal.nD Cert.KernelIdeal.τ).loc Cert.KernelIdeal.main_arg1)) ![1, 0] Cert.KernelIdeal.Gen.slices_S2x800000_S1x800000_1_0)), ?_, ?_⟩
  · refine (θ_run Cert.KernelIdeal.defs _ _).mono (fun r h c => ⟨(h c).1.trans ?_, (h c).2⟩)
      (Cert.KernelIdeal.RunValue.run_result (F := Ideal) m ρ)
    rw [Cert.KernelIdeal.ValueChain.result_eq m ρ c _ (Cert.KernelIdeal.ValueChain.factorColumn_eq m ρ c),
      Cert.KernelIdeal.ValueChain.srcRows_eq, Cert.KernelIdeal.ValueChain.dstRows_eq]
  · refine (θ_run Cert.ReferenceIdeal.defs _ _).mono (fun r h c => ⟨(h c).1.trans ?_, (h c).2⟩)
      (Cert.ReferenceIdeal.ValueP.run (F := Ideal) m' ρ')
    rw [Cert.ReferenceIdeal.RefValue.result_eq, (hagree c).1, (hagree c).2.1, (hagree c).2.2.1, (hagree c).2.2.2.1,
      (hagree c).2.2.2.2.1, (hagree c).2.2.2.2.2]
    exact (kernelOut_eq_refOut _ _ _ _ _ _ (nodeFactor_nonneg_ne_top _) _ _ _
      (fun e he => asColumn_wrapped_of_nonneg _ e he)).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
